-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x128 : Shape := ⟨2, ![4096, 128]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x128 .f32) (main_arg5 : FVec F S4096 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S4096x128 .f32 := Host.absf main_arg4
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096x4096 .f32) (main_arg3 : FVec F S4096x128 .f32) (main_arg4 : FVec F S4096x128 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096x128 : Shape := ⟨2, ![4096, 128]⟩
abbrev S4096 : Shape := ⟨1, ![4096]⟩
abbrev S4096x128x32 : Shape := ⟨3, ![4096, 128, 32]⟩
abbrev S4096x128x1 : Shape := ⟨3, ![4096, 128, 1]⟩
abbrev S32x128x32 : Shape := ⟨3, ![32, 128, 32]⟩
abbrev S32x128x1 : Shape := ⟨3, ![32, 128, 1]⟩
abbrev S32x128 : Shape := ⟨2, ![32, 128]⟩
abbrev S8192x4096 : Shape := ⟨2, ![8192, 4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 16
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x128, .f32⟩
  | .hbm, ⟨4, _⟩ => ⟨S4096x128, .f32⟩
  | .hbm, ⟨5, _⟩ => ⟨S4096, .f32⟩
  | .hbm, ⟨6, _⟩ => ⟨S4096x128x32, .f32⟩
  | .hbm, ⟨7, _⟩ => ⟨S4096x128x32, .f32⟩
  | .hbm, ⟨8, _⟩ => ⟨S4096x128x1, .f32⟩
  | .hbm, ⟨9, _⟩ => ⟨S4096x128x1, .f32⟩
  | .hbm, ⟨10, _⟩ => ⟨S4096x128x32, .bf16⟩
  | .hbm, ⟨11, _⟩ => ⟨S4096x4096, .bf16⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S4x2048x4096, .f32⟩
  | .local _ .vmem, ⟨0, _⟩ => ⟨S32x128x32, .f32⟩
  | .local _ .vmem, ⟨1, _⟩ => ⟨S32x128x32, .f32⟩
  | .local _ .vmem, ⟨2, _⟩ => ⟨S32x128x32, .f32⟩
  | .local _ .vmem, ⟨3, _⟩ => ⟨S32x128x32, .f32⟩
  | .local _ .vmem, ⟨4, _⟩ => ⟨S32x128x1, .f32⟩
  | .local _ .vmem, ⟨5, _⟩ => ⟨S32x128x1, .f32⟩
  | .local _ .vmem, ⟨6, _⟩ => ⟨S32x128x1, .f32⟩
  | .local _ .vmem, ⟨7, _⟩ => ⟨S32x128x1, .f32⟩
  | .local _ .vmem, ⟨8, _⟩ => ⟨S32x128x32, .bf16⟩
  | .local _ .vmem, ⟨9, _⟩ => ⟨S32x128x32, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096x4096_S4096x128x32 : S4096x4096.ShapeCasts S4096x128x32
  shapeCasts_S4096x128_S4096x128x1 : S4096x128.ShapeCasts S4096x128x1
  inb_S32x128x32_S32x128x32_0_0_0 : ∀ a, (![0, 0, 0] : Fin 3 → Nat) a + S32x128x32.size a ≤ S32x128x32.size a
  h_S32x128x32 : 0 < S32x128x32.numel
  shapeCasts_S32x128x32_S32x128x32 : S32x128x32.ShapeCasts S32x128x32
  inb_S32x128x1_S32x128x1_0_0_0 : ∀ a, (![0, 0, 0] : Fin 3 → Nat) a + S32x128x1.size a ≤ S32x128x1.size a
  h_S32x128x1 : 0 < S32x128x1.numel
  shapeCasts_S32x128x1_S32x128x1 : S32x128x1.ShapeCasts S32x128x1
  reduces_S32x128x32_S32x128 : S32x128x32.Reduces [2] S32x128
  shapeCasts_S32x128_S32x128x1 : S32x128.ShapeCasts S32x128x1
  broadcasts_S32x128x1_S32x128x32 : S32x128x1.Broadcasts S32x128x32
  bitsLt_bf16_f32 : FTy.bits .bf16 < FTy.bits .f32
  packedbf16_S32x128x32_S32x128x32_0_0_0 : (Rect.unit (s := S32x128x32) ![0, 0, 0] S32x128x32.size inb_S32x128x32_S32x128x32_0_0_0).PackedRows (EltTy.packing .bf16)
  shapeCasts_S4096x128x32_S4096x4096 : S4096x128x32.ShapeCasts S4096x4096
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x32.size a ≤ S4096x128x32.size a
  hwx0_0 : ∀ i : grid0.Coords, EltTy.bits .f32 = 32 ∨ (Rect.block (s := S4096x128x32) S32x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x32.size a ≤ S4096x128x32.size a
  hwx0_1 : ∀ i : grid0.Coords, EltTy.bits .f32 = 32 ∨ (Rect.block (s := S4096x128x32) S32x128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x1.size a ≤ S4096x128x1.size a
  hwx0_2 : ∀ i : grid0.Coords, EltTy.bits .f32 = 32 ∨ (Rect.block (s := S4096x128x1) S32x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x1.size a ≤ S4096x128x1.size a
  hwx0_3 : ∀ i : grid0.Coords, EltTy.bits .f32 = 32 ∨ (Rect.block (s := S4096x128x1) S32x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128x32.size a ≤ S4096x128x32.size a
  hwx0_4 : ∀ i : grid0.Coords, EltTy.bits .bf16 = 32 ∨ (Rect.block (s := S4096x128x32) S32x128x32.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S32x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x128x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x128 : Shape := ⟨2, ![4096, 128]⟩
abbrev S4096 : Shape := ⟨1, ![4096]⟩
abbrev S4096x128x32 : Shape := ⟨3, ![4096, 128, 32]⟩
abbrev S_ : Shape := ⟨0, ![]⟩
abbrev S4096x128x1 : Shape := ⟨3, ![4096, 128, 1]⟩
abbrev S1x1x4096 : Shape := ⟨3, ![1, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x128, .f32⟩
  | .hbm, ⟨4, _⟩ => ⟨S4096x128, .f32⟩
  | .hbm, ⟨5, _⟩ => ⟨S4096, .f32⟩
  | .hbm, ⟨6, _⟩ => ⟨S4096x128x32, .f32⟩
  | .hbm, ⟨7, _⟩ => ⟨S_, .f32⟩
  | .hbm, ⟨8, _⟩ => ⟨S4096x128, .f32⟩
  | .hbm, ⟨9, _⟩ => ⟨S4096x128x1, .f32⟩
  | .hbm, ⟨10, _⟩ => ⟨S4096x128x1, .f32⟩
  | .hbm, ⟨11, _⟩ => ⟨S4096x128x1, .f32⟩
  | .hbm, ⟨12, _⟩ => ⟨S_, .f32⟩
  | .hbm, ⟨13, _⟩ => ⟨S4096x128, .f32⟩
  | .hbm, ⟨14, _⟩ => ⟨S4096x128x1, .f32⟩
  | .hbm, ⟨15, _⟩ => ⟨S4096x128x1, .f32⟩
  | .hbm, ⟨16, _⟩ => ⟨S4096x128x1, .f32⟩
  | .hbm, ⟨17, _⟩ => ⟨S4096x128x1, .f32⟩
  | .hbm, ⟨18, _⟩ => ⟨S_, .f32⟩
  | .hbm, ⟨19, _⟩ => ⟨S4096x128x1, .f32⟩
  | .hbm, ⟨20, _⟩ => ⟨S4096x128x1, .f32⟩
  | .hbm, ⟨21, _⟩ => ⟨S_, .f32⟩
  | .hbm, ⟨22, _⟩ => ⟨S4096x128x1, .f32⟩
  | .hbm, ⟨23, _⟩ => ⟨S4096x128x1, .f32⟩
  | .hbm, ⟨24, _⟩ => ⟨S4096x128x1, .f32⟩
  | .hbm, ⟨25, _⟩ => ⟨S4096x128x1, .f32⟩
  | .hbm, ⟨26, _⟩ => ⟨S4096x128x32, .f32⟩
  | .hbm, ⟨27, _⟩ => ⟨S4096x128x32, .f32⟩
  | .hbm, ⟨28, _⟩ => ⟨S4096x128x32, .f32⟩
  | .hbm, ⟨29, _⟩ => ⟨S4096x128x32, .f32⟩
  | .hbm, ⟨30, _⟩ => ⟨S4096x128x32, .f32⟩
  | .hbm, ⟨31, _⟩ => ⟨S4096x128x32, .f32⟩
  | .hbm, ⟨32, _⟩ => ⟨S4096x128x32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096x128x32, .f32⟩
  | .hbm, ⟨37, _⟩ => ⟨S4096x128x32, .f32⟩
  | .hbm, ⟨38, _⟩ => ⟨S_, .f32⟩
  | .hbm, ⟨39, _⟩ => ⟨S4096x128x32, .f32⟩
  | .hbm, ⟨40, _⟩ => ⟨S4096x128x32, .f32⟩
  | .hbm, ⟨41, _⟩ => ⟨S4096x128x32, .f32⟩
  | .hbm, ⟨42, _⟩ => ⟨S4096x128x32, .f32⟩
  | .hbm, ⟨43, _⟩ => ⟨S4096x128x32, .f32⟩
  | .hbm, ⟨44, _⟩ => ⟨S4096x128x32, .f32⟩
  | .hbm, ⟨45, _⟩ => ⟨S4096x4096, .f32⟩
  | .hbm, ⟨46, _⟩ => ⟨S4x2048x4096, .f32⟩
  | .hbm, ⟨47, _⟩ => ⟨S1x1x4096, .f32⟩
  | .hbm, ⟨48, _⟩ => ⟨S4x2048x4096, .f32⟩
  | .hbm, ⟨49, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  shapeCasts_S4096x4096_S4096x128x32 : S4096x4096.ShapeCasts S4096x128x32
  reducesTo_S4096x128x32_S4096x128_d2 : S4096x128x32.ReducesTo [2] S4096x128
  h_S_ : 0 < S_.numel
  bcast_S4096x128_S4096x128x1_0_1 : S4096x128.BroadcastsInDim S4096x128x1 (![0, 1] : Fin 2 → Fin S4096x128x1.rank)
  bcast_S_S4096x128x1 : S_.BroadcastsInDim S4096x128x1 (![] : Fin 0 → Fin S4096x128x1.rank)
  bcast_S4096x128x1_S4096x128x32_0_1_2 : S4096x128x1.BroadcastsInDim S4096x128x32 (![0, 1, 2] : Fin 3 → Fin S4096x128x32.rank)
  bcast_S_S4096x128x32 : S_.BroadcastsInDim S4096x128x32 (![] : Fin 0 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.Region0.lean ====
import proofs.«133823_j23596550324544_2_alg».proof.Proof.Gen.Kernel.Launch
import proofs.«133823_j23596550324544_2_alg».proof.Proof.Gen.Kernel.Skeleton
import proofs.«133823_j23596550324544_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first pipeline of the program (the per-group rescaling), at the contents its region is entered with

The pipeline walks 128 grid points; at point t each of its five windows holds the row-tile t (32 rows) of its
array. The body reads the four input tiles and stores one value, a pure function (k0_pay1) of the four tiles,
over the whole output tile. This file states, for arbitrary contents V of the buffers at region entry, what each
window's staging buffer holds around the body at every point, and proves that the body meets the pipeline's
per-point obligation. Everything is generic in the arithmetic F. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or
    not, for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_a : Rect S32x128x32 := Rect.unit (s := S32x128x32) ![0, 0, 0] S32x128x32.size inb_S32x128x32_S32x128x32_0_0_0
abbrev r0_b : Rect S32x128x1 := Rect.unit (s := S32x128x1) ![0, 0, 0] S32x128x1.size inb_S32x128x1_S32x128x1_0_0_0

/-! ## What the body leaves in the output window's buffer -/

/-- The output tile after the body, from the four input tiles: one store over the whole tile, of the
    body's arithmetic applied to what the four loads read. -/
def out0_4 (x0 x1 : Vec F S32x128x32 .f32) (x2 x3 : Vec F S32x128x1 .f32) : Vec F S32x128x32 .bf16 :=
  View.canon [⟨r0_a, k0_pay1 (View.ld x0 r0_a) (View.ld x1 r0_a) (View.ld x2 r0_b) (View.ld x3 r0_b)⟩]

/-- The one store tiles the buffer, so it covers it. -/
theorem cover0_4 (p0 : Vec F S32x128x32 .bf16) (y : S32x128x32.Idx) :
    ∃ pc ∈ ([⟨r0_a, p0⟩] : List (View.Piece (Elt F) S32x128x32 .bf16)), y ∈ pc.1.set :=
  View.cover_of_tiled [⟨r0_a, p0⟩] S32x128x32.size (by rfl) y

/-! ## The body's triple -/

set_option maxHeartbeats 1000000 in
/-- The body on whole staging buffers, the inputs' at contents x0 … x3 and the output's at anything, runs to a
    state holding the inputs' as they were and the output's at out0_4 of them. -/
theorem sound_kernel0 (c : Dev nD) (E : Set ℕ) (i : grid0.Coords)
    (arg1 : Memref sig .tc .vmem S32x128x32 .f32) (harg1 : arg1.IsWhole) (arg2 : Memref sig .tc .vmem S32x128x32 .f32) (harg2 : arg2.IsWhole)
    (arg3 : Memref sig .tc .vmem S32x128x1 .f32) (harg3 : arg3.IsWhole) (arg4 : Memref sig .tc .vmem S32x128x1 .f32) (harg4 : arg4.IsWhole)
    (arg5 : Memref sig .tc .vmem S32x128x32 .bf16) (harg5 : arg5.IsWhole)
    (x0 x1 : Vec F S32x128x32 .f32) (x2 x3 : Vec F S32x128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__dequant_kernel i arg1 harg1 arg2 harg2 arg3 harg3 arg4 harg4 arg5 harg5) K := by
  simp only [cc0__dequant_kernel_eq_skeleton]; unfold cc0__dequant_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core c: the arrays as the region finds them; after the body at point t
    each input's buffer still at its block and the output's at out0_4 of the four input blocks; the invariant is
    the untouched rest (scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Base.lean ====
/-
  The second kernel region (the product of the rows of x with the rounded weights, accumulated over eight
  column blocks of 512): what its proofs share.  A grid point is (i, j, k) with k running fastest; at k = 0 the
  accumulator is reset, at every k the block product is added to it, at k = 7 the accumulator plus the bias row is
  stored into the output block.  Here: each window's block at a point, the two branch conditions in closed form
  over the 256 points, where the output window is idle, and the region's invariant with the accumulator named.
-/
import proofs.«133823_j23596550324544_2_alg».proof.Proof.Gen.Kernel.Launch
import proofs.«133823_j23596550324544_2_alg».proof.Proof.Gen.Kernel.Skeleton
import proofs.«133823_j23596550324544_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is
    not fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions -/

/-- "k = 0": the accumulator is reset. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the output block is stored. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 7 the body stores nothing into the output window, and the block is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 7 it stores into it. -/
theorem liveAt1_3 : ∀ t : Fin cfg1.N, cond1_1 (grid1.coords t) → cfg1.idle 3 (grid1.coords t) = false := by decide +kernel

/-! ## The staging memrefs at a point, the accumulator's buffer -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x1024 .f32 := Memref.whole cc1_scratch0
abbrev VS1 : View sig .tc .vmem S1024x1024 .f32 := scM1.view

/-- The other scoped buffers of the core (the first region's staging buffers), each whole at some contents, in front
    of one more factor. -/
def others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- The region's plain invariant (every scoped buffer that is no staging buffer of this region at some contents, the
    generator register at some state) with the accumulator singled out as a memref owned at some contents. -/
theorem PhiA1_eq (c : Dev nD) :
    (Pipeline.ΦA spec1 c : sProp 𝕄)
      = iprop(others1 c (iprop(∃ d, owns (c : Thread nD τ) scM1 fullShare d)) ∗ (∃ r, prngReg c r)) := by
  unfold Pipeline.ΦA others1; rw [scopedRest1_eq]; simp only [scM1, owns_whole]; try rfl

end Cert.Kernel.Hand

end
-- ==== Proof.K.R1RunA.lean ====
/-
  The body of the second region at a point with k = 0 (and k ≠ 7): on whole staging memrefs holding the three input
  blocks, the output block left as found, the accumulator at anything, it runs to the end and leaves in the accumulator
  the pieces listed (found by running it): the reset, then the block product added.
-/
import proofs.«133823_j23596550324544_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S1024x512 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunB.lean ====
/-
  The body of the second region at a point with 0 < k < 7: the accumulator holds what the point before left; the body
  adds the block product to it and stores nothing else.
-/
import proofs.«133823_j23596550324544_2_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S1024x512 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunC.lean ====
/-
  The body of the second region at a point with k = 7: the accumulator holds what the point before left; the body adds
  the last block product to it, and stores the accumulator plus the bias row into the output block.
-/
import proofs.«133823_j23596550324544_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.Region1.lean ====
/-
  The second kernel region: what the accumulator and the output block hold after each grid point, the region's proof
  data, and the body's obligation at every point.

  After point n (k = n mod 8) the accumulator holds: the block product alone where k = 0 (the reset first), else the
  block product added to what point n - 1 left.  The output block is stored only where k = 7, as the accumulator plus
  the bias row; elsewhere the window is idle and not written back.  The invariant before point n > 0 names the
  accumulator's contents (what point n - 1 left); before the first point it is the plain one.
-/
import proofs.«133823_j23596550324544_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One factor of the invariant exchanged for another, the ten others riding along. -/
theorem others1_swap (c : Dev nD) (S S' : sProp 𝕄) : others1 (F := F) c S ⊢ iprop(S ∗ (S' -∗ others1 (F := F) c S')) := by
  unfold others1
  iintro ⟨H1, H2, H3, H4, H5, H6, H7, H8, H9, H10, HS⟩
  isplitl [HS]; · iexact HS
  iintro HS'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HS'

/-! ## What each case leaves -/

/-- Case A (k = 0) stores nothing into the output window: a placeholder nothing consults. -/
def out1_A_3 (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x512 .f32) (x1 : Vec F S1024x512 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
/-- Case A's pieces for the accumulator cover it. -/
theorem scover1_A (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x512 .f32) (x1 : Vec F S1024x512 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What case A leaves in the accumulator. -/
def sout1_A (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x512 .f32) (x1 : Vec F S1024x512 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- Case B (0 < k < 7) stores nothing into the output window either. -/
def out1_B_3 (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x512 .f32) (x1 : Vec F S1024x512 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x512 .f32) (x1 : Vec F S1024x512 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
def sout1_B (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x512 .f32) (x1 : Vec F S1024x512 .bf16) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).2.1)

/-- Case C (k = 7): its one store covers the output block. -/
theorem cover1_C_3 (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
/-- What case C leaves in the output block. -/
def out1_C_3 (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
def sout1_C (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .bf16) (x2 : Vec F S1x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs0).2.1)

section
variable (V : (c : Dev nD) → (b : Ref sig .tc) → Buf (Elt F) ((c : Thread nD τ).loc b))

/-! ## Point by point -/

/-- What the output window's staging buffer and the accumulator hold after the body at position `n`. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the plain one; afterwards the accumulator at
    what the point before left, the other scoped buffers at anything, the generator register at some state. -/
def PhiS1 (c : Dev nD) : (n : ℕ) → n ≤ cfg1.N → sProp 𝕄
  | 0, _ => Pipeline.ΦA spec1 c
  | n + 1, hn => iprop(others1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(others1 c (owns (c : Thread nD τ) scM1 fullShare ((outsAt1 V c (n - 1) (by omega)).2)) ∗ (∃ r, prngReg c r)) := by
  cases n with
  | zero => exact absurd rfl hz
  | succ n => rfl

/-! ## The proof data -/

/-- The proof data of the second region on core `c`: the arrays as the region finds them; after the body each input's
    buffer at its block, the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 256 := lt_of_lt_of_eq t.isLt (show cfg1.N = 256 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨HO, Hg⟩, Ho, ⟨%d0, H0⟩, ⟨%d1, H1⟩, ⟨%d2, H2⟩, ⟨%d3, H3⟩⟩
      ihave HO' := (others1_swap c _ (owns (c : Thread nD τ) scM1 fullShare (VS1.read (Elt F) (VS1.writes (Elt F) VS1.junk (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2.1)))) $$ HO
      icases HO' with ⟨HS0, Hback⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hback]
      · isplitl [HS0 Hback]
        · iapply Hback
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HO, Hg⟩, Ho, ⟨%d0, H0⟩, ⟨%d1, H1⟩, ⟨%d2, H2⟩, ⟨%d3, H3⟩⟩
      ihave HO' := (others1_swap c _ (owns (c : Thread nD τ) scM1 fullShare (VS1.read (Elt F) (VS1.writes (Elt F) VS1.junk (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2.1)))) $$ HO
      icases HO' with ⟨HS0, Hback⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hback]
      · isplitl [HS0 Hback]
        · iapply Hback
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS1_castSucc V c t, PhiS1_pos V c _ _ hz]
      iintro ⟨⟨HO, Hg⟩, Ho, ⟨%d0, H0⟩, ⟨%d1, H1⟩, ⟨%d2, H2⟩, ⟨%d3, H3⟩⟩
      ihave HO' := (others1_swap c _ (owns (c : Thread nD τ) scM1 fullShare (VS1.read (Elt F) (VS1.writes (Elt F) VS1.junk (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).2.1)))) $$ HO
      icases HO' with ⟨HS0, Hback⟩
      iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hback]
      · isplitl [HS0 Hback]
        · iapply Hback
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨HO, Hg⟩, Ho, ⟨%d0, H0⟩, ⟨%d1, H1⟩, ⟨%d2, H2⟩, ⟨%d3, H3⟩⟩
      ihave HO' := (others1_swap c _ (owns (c : Thread nD τ) scM1 fullShare (VS1.read (Elt F) (VS1.writes (Elt F) VS1.junk (kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2).2.1)))) $$ HO
      icases HO' with ⟨HS0, Hback⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hback]
      · isplitl [HS0 Hback]
        · iapply Hback
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HO, Hg⟩
  isplitl [HO]
  · ihave HO' := (others1_swap c _ (iprop(∃ d, owns (c : Thread nD τ) scM1 fullShare d))) $$ HO
    icases HO' with ⟨HS0, Hback⟩
    iapply Hback
    iexists _; iexact HS0
  iexact Hg

theorem hout1 (c : Dev nD) : (dat1 V c).Φ (Fin.last cfg1.N) ⊢ Pipeline.ΦA spec1 c :=
  Phi_out1 V c _ (by rw [Fin.val_last]; have : cfg1.N = 256 := N_1; omega)

end

end Cert.Kernel.Hand

end
-- ==== Proof.K.Run.lean ====
/-
  The whole program as five segments — the reshapes of the weights, the first kernel region, the reshapes of its
  result, of x and of the bias, the second kernel region, the reshape of its result — run from the launch to the
  return: every weakly fair execution terminates, and at the end every unscoped buffer of a core holds the last
  boundary's contents.  The contents at the six boundaries are a fold from the launch memory: a stretch of host
  operations applies them; a region leaves its arrays at what its write-backs give and every other buffer as it was.
-/
import proofs.«133823_j23596550324544_2_alg».proof.Proof.K.Region0
import proofs.«133823_j23596550324544_2_alg».proof.Proof.K.Region1
import proofs.«133823_j23596550324544_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ### The arguments end as launched: no host operation writes one and no region has one as a window's array -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-- The plain invariant of the second region, opened: the scoped rest beside the generator register. -/
theorem PhiA_split1 (c : Dev nD) : (Pipeline.ΦA spec1 c : sProp 𝕄) ⊢ iprop(Pipeline.scopedRest spec1 c ∗ ∃ r, prngReg c r) := by
  unfold Pipeline.ΦA; exact .rfl

/-! ## The regions as segments -/

set_option backward.isDefEq.respectTransparency.types false in
/-- Region 0 over the thread state: entered from every unscoped buffer at the contents before it, left at the contents
    after it; its arrays split out of the unscoped buffers and put back; the generator register into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [show (pdats m ρ 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back; the generator register into the invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    iintro HPhi
    ihave H := ((hout1 (V3 m ρ) c).trans (PhiA_split1 c)) $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ (∃ r, prngReg c r) ∗ ∃ W, owes (c : Thread nD τ) (0 : CellTallies nD τ sig Unit) W)
        ⊢ iprop(iprop(StableHlo.held (c : Thread nD τ) (Pipeline.ucRefs τ sig) (W5 m ρ c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.Kernel.Hand

end
-- ==== Proof.KI.Region0.lean ====
import proofs.«133823_j23596550324544_2_alg».proof.Proof.Gen.KernelIdeal.Launch
import proofs.«133823_j23596550324544_2_alg».proof.Proof.Gen.KernelIdeal.Skeleton
import proofs.«133823_j23596550324544_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first pipeline of the program (the per-group rescaling), at the contents its region is entered with

The pipeline walks 128 grid points; at point t each of its five windows holds the row-tile t (32 rows) of its
array. The body reads the four input tiles and stores one value, a pure function (k0_pay1) of the four tiles,
over the whole output tile. This file states, for arbitrary contents V of the buffers at region entry, what each
window's staging buffer holds around the body at every point, and proves that the body meets the pipeline's
per-point obligation. Everything is generic in the arithmetic F. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or
    not, for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_a : Rect S32x128x32 := Rect.unit (s := S32x128x32) ![0, 0, 0] S32x128x32.size inb_S32x128x32_S32x128x32_0_0_0
abbrev r0_b : Rect S32x128x1 := Rect.unit (s := S32x128x1) ![0, 0, 0] S32x128x1.size inb_S32x128x1_S32x128x1_0_0_0

/-! ## What the body leaves in the output window's buffer -/

/-- The output tile after the body, from the four input tiles: one store over the whole tile, of the
    body's arithmetic applied to what the four loads read. -/
def out0_4 (x0 x1 : Vec F S32x128x32 .f32) (x2 x3 : Vec F S32x128x1 .f32) : Vec F S32x128x32 .bf16 :=
  View.canon [⟨r0_a, k0_pay1 (View.ld x0 r0_a) (View.ld x1 r0_a) (View.ld x2 r0_b) (View.ld x3 r0_b)⟩]

/-- The one store tiles the buffer, so it covers it. -/
theorem cover0_4 (p0 : Vec F S32x128x32 .bf16) (y : S32x128x32.Idx) :
    ∃ pc ∈ ([⟨r0_a, p0⟩] : List (View.Piece (Elt F) S32x128x32 .bf16)), y ∈ pc.1.set :=
  View.cover_of_tiled [⟨r0_a, p0⟩] S32x128x32.size (by rfl) y

/-! ## The body's triple -/

set_option maxHeartbeats 1000000 in
/-- The body on whole staging buffers, the inputs' at contents x0 … x3 and the output's at anything, runs to a
    state holding the inputs' as they were and the output's at out0_4 of them. -/
theorem sound_kernel0 (c : Dev nD) (E : Set ℕ) (i : grid0.Coords)
    (arg1 : Memref sig .tc .vmem S32x128x32 .f32) (harg1 : arg1.IsWhole) (arg2 : Memref sig .tc .vmem S32x128x32 .f32) (harg2 : arg2.IsWhole)
    (arg3 : Memref sig .tc .vmem S32x128x1 .f32) (harg3 : arg3.IsWhole) (arg4 : Memref sig .tc .vmem S32x128x1 .f32) (harg4 : arg4.IsWhole)
    (arg5 : Memref sig .tc .vmem S32x128x32 .bf16) (harg5 : arg5.IsWhole)
    (x0 x1 : Vec F S32x128x32 .f32) (x2 x3 : Vec F S32x128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__dequant_kernel i arg1 harg1 arg2 harg2 arg3 harg3 arg4 harg4 arg5 harg5) K := by
  simp only [cc0__dequant_kernel_eq_skeleton]; unfold cc0__dequant_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core c: the arrays as the region finds them; after the body at point t
    each input's buffer still at its block and the output's at out0_4 of the four input blocks; the invariant is
    the untouched rest (scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Base.lean ====
/-
  The second kernel region (the product of the rows of x with the rounded weights, accumulated over eight
  column blocks of 512): what its proofs share.  A grid point is (i, j, k) with k running fastest; at k = 0 the
  accumulator is reset, at every k the block product is added to it, at k = 7 the accumulator plus the bias row is
  stored into the output block.  Here: each window's block at a point, the two branch conditions in closed form
  over the 256 points, where the output window is idle, and the region's invariant with the accumulator named.
-/
import proofs.«133823_j23596550324544_2_alg».proof.Proof.Gen.KernelIdeal.Launch
import proofs.«133823_j23596550324544_2_alg».proof.Proof.Gen.KernelIdeal.Skeleton
import proofs.«133823_j23596550324544_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is
    not fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions -/

/-- "k = 0": the accumulator is reset. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the output block is stored. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 7 the body stores nothing into the output window, and the block is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 7 it stores into it. -/
theorem liveAt1_3 : ∀ t : Fin cfg1.N, cond1_1 (grid1.coords t) → cfg1.idle 3 (grid1.coords t) = false := by decide +kernel

/-! ## The staging memrefs at a point, the accumulator's buffer -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x1024 .f32 := Memref.whole cc1_scratch0
abbrev VS1 : View sig .tc .vmem S1024x1024 .f32 := scM1.view

/-- The other scoped buffers of the core (the first region's staging buffers), each whole at some contents, in front
    of one more factor. -/
def others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- The region's plain invariant (every scoped buffer that is no staging buffer of this region at some contents, the
    generator register at some state) with the accumulator singled out as a memref owned at some contents. -/
theorem PhiA1_eq (c : Dev nD) :
    (Pipeline.ΦA spec1 c : sProp 𝕄)
      = iprop(others1 c (iprop(∃ d, owns (c : Thread nD τ) scM1 fullShare d)) ∗ (∃ r, prngReg c r)) := by
  unfold Pipeline.ΦA others1; rw [scopedRest1_eq]; simp only [scM1, owns_whole]; try rfl

end Cert.KernelIdeal.Hand

end
-- ==== Proof.KI.R1RunA.lean ====
/-
  The body of the second region at a point with k = 0 (and k ≠ 7): on whole staging memrefs holding the three input
  blocks, the output block left as found, the accumulator at anything, it runs to the end and leaves in the accumulator
  the pieces listed (found by running it): the reset, then the block product added.
-/
import proofs.«133823_j23596550324544_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S1024x512 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunB.lean ====
/-
  The body of the second region at a point with 0 < k < 7: the accumulator holds what the point before left; the body
  adds the block product to it and stores nothing else.
-/
import proofs.«133823_j23596550324544_2_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S1024x512 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunC.lean ====
/-
  The body of the second region at a point with k = 7: the accumulator holds what the point before left; the body adds
  the last block product to it, and stores the accumulator plus the bias row into the output block.
-/
import proofs.«133823_j23596550324544_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.Region1.lean ====
/-
  The second kernel region: what the accumulator and the output block hold after each grid point, the region's proof
  data, and the body's obligation at every point.

  After point n (k = n mod 8) the accumulator holds: the block product alone where k = 0 (the reset first), else the
  block product added to what point n - 1 left.  The output block is stored only where k = 7, as the accumulator plus
  the bias row; elsewhere the window is idle and not written back.  The invariant before point n > 0 names the
  accumulator's contents (what point n - 1 left); before the first point it is the plain one.
-/
import proofs.«133823_j23596550324544_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One factor of the invariant exchanged for another, the ten others riding along. -/
theorem others1_swap (c : Dev nD) (S S' : sProp 𝕄) : others1 (F := F) c S ⊢ iprop(S ∗ (S' -∗ others1 (F := F) c S')) := by
  unfold others1
  iintro ⟨H1, H2, H3, H4, H5, H6, H7, H8, H9, H10, HS⟩
  isplitl [HS]; · iexact HS
  iintro HS'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HS'

/-! ## What each case leaves -/

/-- Case A (k = 0) stores nothing into the output window: a placeholder nothing consults. -/
def out1_A_3 (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x512 .f32) (x1 : Vec F S1024x512 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
/-- Case A's pieces for the accumulator cover it. -/
theorem scover1_A (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x512 .f32) (x1 : Vec F S1024x512 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What case A leaves in the accumulator. -/
def sout1_A (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x512 .f32) (x1 : Vec F S1024x512 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- Case B (0 < k < 7) stores nothing into the output window either. -/
def out1_B_3 (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x512 .f32) (x1 : Vec F S1024x512 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x512 .f32) (x1 : Vec F S1024x512 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
def sout1_B (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x512 .f32) (x1 : Vec F S1024x512 .bf16) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).2.1)

/-- Case C (k = 7): its one store covers the output block. -/
theorem cover1_C_3 (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
/-- What case C leaves in the output block. -/
def out1_C_3 (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
def sout1_C (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .bf16) (x2 : Vec F S1x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs0).2.1)

section
variable (V : (c : Dev nD) → (b : Ref sig .tc) → Buf (Elt F) ((c : Thread nD τ).loc b))

/-! ## Point by point -/

/-- What the output window's staging buffer and the accumulator hold after the body at position `n`. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the plain one; afterwards the accumulator at
    what the point before left, the other scoped buffers at anything, the generator register at some state. -/
def PhiS1 (c : Dev nD) : (n : ℕ) → n ≤ cfg1.N → sProp 𝕄
  | 0, _ => Pipeline.ΦA spec1 c
  | n + 1, hn => iprop(others1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(others1 c (owns (c : Thread nD τ) scM1 fullShare ((outsAt1 V c (n - 1) (by omega)).2)) ∗ (∃ r, prngReg c r)) := by
  cases n with
  | zero => exact absurd rfl hz
  | succ n => rfl

/-! ## The proof data -/

/-- The proof data of the second region on core `c`: the arrays as the region finds them; after the body each input's
    buffer at its block, the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 256 := lt_of_lt_of_eq t.isLt (show cfg1.N = 256 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨HO, Hg⟩, Ho, ⟨%d0, H0⟩, ⟨%d1, H1⟩, ⟨%d2, H2⟩, ⟨%d3, H3⟩⟩
      ihave HO' := (others1_swap c _ (owns (c : Thread nD τ) scM1 fullShare (VS1.read (Elt F) (VS1.writes (Elt F) VS1.junk (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2.1)))) $$ HO
      icases HO' with ⟨HS0, Hback⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hback]
      · isplitl [HS0 Hback]
        · iapply Hback
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HO, Hg⟩, Ho, ⟨%d0, H0⟩, ⟨%d1, H1⟩, ⟨%d2, H2⟩, ⟨%d3, H3⟩⟩
      ihave HO' := (others1_swap c _ (owns (c : Thread nD τ) scM1 fullShare (VS1.read (Elt F) (VS1.writes (Elt F) VS1.junk (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2.1)))) $$ HO
      icases HO' with ⟨HS0, Hback⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hback]
      · isplitl [HS0 Hback]
        · iapply Hback
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS1_castSucc V c t, PhiS1_pos V c _ _ hz]
      iintro ⟨⟨HO, Hg⟩, Ho, ⟨%d0, H0⟩, ⟨%d1, H1⟩, ⟨%d2, H2⟩, ⟨%d3, H3⟩⟩
      ihave HO' := (others1_swap c _ (owns (c : Thread nD τ) scM1 fullShare (VS1.read (Elt F) (VS1.writes (Elt F) VS1.junk (kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).2.1)))) $$ HO
      icases HO' with ⟨HS0, Hback⟩
      iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hback]
      · isplitl [HS0 Hback]
        · iapply Hback
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨HO, Hg⟩, Ho, ⟨%d0, H0⟩, ⟨%d1, H1⟩, ⟨%d2, H2⟩, ⟨%d3, H3⟩⟩
      ihave HO' := (others1_swap c _ (owns (c : Thread nD τ) scM1 fullShare (VS1.read (Elt F) (VS1.writes (Elt F) VS1.junk (kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2).2.1)))) $$ HO
      icases HO' with ⟨HS0, Hback⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hback]
      · isplitl [HS0 Hback]
        · iapply Hback
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HO, Hg⟩
  isplitl [HO]
  · ihave HO' := (others1_swap c _ (iprop(∃ d, owns (c : Thread nD τ) scM1 fullShare d))) $$ HO
    icases HO' with ⟨HS0, Hback⟩
    iapply Hback
    iexists _; iexact HS0
  iexact Hg

theorem hout1 (c : Dev nD) : (dat1 V c).Φ (Fin.last cfg1.N) ⊢ Pipeline.ΦA spec1 c :=
  Phi_out1 V c _ (by rw [Fin.val_last]; have : cfg1.N = 256 := N_1; omega)

end

end Cert.KernelIdeal.Hand

end
-- ==== Proof.KI.Run.lean ====
/-
  The whole program as five segments — the reshapes of the weights, the first kernel region, the reshapes of its
  result, of x and of the bias, the second kernel region, the reshape of its result — run from the launch to the
  return: every weakly fair execution terminates, and at the end every unscoped buffer of a core holds the last
  boundary's contents.  The contents at the six boundaries are a fold from the launch memory: a stretch of host
  operations applies them; a region leaves its arrays at what its write-backs give and every other buffer as it was.
-/
import proofs.«133823_j23596550324544_2_alg».proof.Proof.KI.Region0
import proofs.«133823_j23596550324544_2_alg».proof.Proof.KI.Region1
import proofs.«133823_j23596550324544_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ### The arguments end as launched: no host operation writes one and no region has one as a window's array -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-- The plain invariant of the second region, opened: the scoped rest beside the generator register. -/
theorem PhiA_split1 (c : Dev nD) : (Pipeline.ΦA spec1 c : sProp 𝕄) ⊢ iprop(Pipeline.scopedRest spec1 c ∗ ∃ r, prngReg c r) := by
  unfold Pipeline.ΦA; exact .rfl

/-! ## The regions as segments -/

set_option backward.isDefEq.respectTransparency.types false in
/-- Region 0 over the thread state: entered from every unscoped buffer at the contents before it, left at the contents
    after it; its arrays split out of the unscoped buffers and put back; the generator register into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [show (pdats m ρ 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back; the generator register into the invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    iintro HPhi
    ihave H := ((hout1 (V3 m ρ) c).trans (PhiA_split1 c)) $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ (∃ r, prngReg c r) ∗ ∃ W, owes (c : Thread nD τ) (0 : CellTallies nD τ sig Unit) W)
        ⊢ iprop(iprop(StableHlo.held (c : Thread nD τ) (Pipeline.ucRefs τ sig) (W5 m ρ c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Hand

end
-- ==== Proof.Spec.lean ====
/-
  The function both programs compute, over the extended reals, stated once and over no program.

  A weight matrix of 4096 rows is cut, row by row, into 128 groups of 32 consecutive entries.  For a group with
  smallest entry `lo` and largest entry `hi`, and the two learnt factors `mn`, `mx` of the group, put
    s = max ((hi * mx - lo * mn) / 255) ε        (the step; ε the binary word 0x322BCC77)
    z = (0 - lo * mn) / s                        (the offset)
  and replace every entry `w` of the group (with its additive correction `v`) by
    s * (min 255 (max 0 (round-half-even (w / s + z + v))) - z).
  The result, read again as a 4096 x 4096 matrix `q`, multiplies the rows of `x`:
    out (b, r, o) = (sum over k < 4096 of x (b, r, k) * q (o, k)) + bias o.
  Nothing here needs an entry to be finite: every operation is the extended reals' own.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 2048, 4096]⟩
abbrev SW : Shape := ⟨2, ![4096, 4096]⟩
abbrev SG : Shape := ⟨2, ![4096, 128]⟩
abbrev SB : Shape := ⟨1, ![4096]⟩
abbrev S3 : Shape := ⟨3, ![4096, 128, 32]⟩
abbrev S31 : Shape := ⟨3, ![4096, 128, 1]⟩
abbrev S2 : Shape := ⟨2, ![8192, 4096]⟩
abbrev SB2 : Shape := ⟨2, ![1, 4096]⟩

/-- 255, 1e-8 (as the f32 word both programs print), 0, and the two infinities, each the value of its binary word. -/
abbrev c255 : EReal := Ideal.ofBits .f32 0x437F0000#32
abbrev ceps : EReal := Ideal.ofBits .f32 0x322BCC77#32
abbrev czero : EReal := Ideal.ofBits .f32 0x00000000#32
abbrev cpinf : EReal := Ideal.ofBits .f32 0x7F800000#32
abbrev cninf : EReal := Ideal.ofBits .f32 0xFF800000#32

/-- The step of a group from its extreme entries and its two factors. -/
def stepOf (lo hi mn mx : EReal) : EReal := max (Ideal.div (hi * mx - lo * mn) c255) ceps
/-- The offset of a group. -/
def offOf (lo mn s : EReal) : EReal := Ideal.div (czero - lo * mn) s
/-- One entry after the rounding to 256 levels and back. -/
def entryOf (lo hi mn mx w v : EReal) : EReal :=
  stepOf lo hi mn mx *
    (min c255 (max czero (Ideal.liftRound Ideal.roundHalfEven
      (Ideal.div w (stepOf lo hi mn mx) + offOf lo mn (stepOf lo hi mn mx) + v)))
      - offOf lo mn (stepOf lo hi mn mx))

/-- The smallest entry of group `(o, g)`: the fold of `min` from +∞ over the group's 32 entries. -/
def glo (w3 : S3.Idx → EReal) (o : Fin 4096) (g : Fin 128) : EReal :=
  (Finset.univ : Finset (Fin 32)).fold min cpinf (fun l => w3 (ix3 o g l))
/-- The largest entry of group `(o, g)`: the fold of `max` from -∞. -/
def ghi (w3 : S3.Idx → EReal) (o : Fin 4096) (g : Fin 128) : EReal :=
  (Finset.univ : Finset (Fin 32)).fold max cninf (fun l => w3 (ix3 o g l))

/-- The weights after the rounding, group by group, as a 4096 x 128 x 32 array. -/
def DQ3 (w3 v3 : S3.Idx → EReal) (mn3 mx3 : S31.Idx → EReal) : S3.Idx → EReal := fun j =>
  entryOf (glo w3 (j 0) (j 1)) (ghi w3 (j 0) (j 1)) (mn3 (ix3 (j 0) (j 1) 0)) (mx3 (ix3 (j 0) (j 1) 0)) (w3 j) (v3 j)

/-- Rows of `x2` (8192 of them) against rows of `q`, plus the bias row. -/
def MM2 (x2 : S2.Idx → EReal) (q : SW.Idx → EReal) (b2 : SB2.Idx → EReal) : S2.Idx → EReal := fun i =>
  (∑ k : Fin 4096, x2 (ix2 (i 0) k) * q (ix2 (i 1) k)) + b2 (ix2 0 (i 1))

/-- The same with `x` kept as 4 x 2048 rows and the bias a vector. -/
def Out (x : SX.Idx → EReal) (q : SW.Idx → EReal) (b : SB.Idx → EReal) : SX.Idx → EReal := fun i =>
  (∑ k : Fin 4096, x (ix3 (i 0) (i 1) k) * q (ix2 (i 2) k)) + b (ix1 (i 2))

/-- The whole function of the six arguments: the weights and their corrections regrouped as 4096 x 128 x 32, the two
    factor arrays as 4096 x 128 x 1, the result of the rounding read back as 4096 x 4096, then the rows of `x` against it. -/
def Whole (x : SX.Idx → EReal) (w v : SW.Idx → EReal) (mn mx : SG.Idx → EReal) (b : SB.Idx → EReal) : SX.Idx → EReal :=
  Out x (shapeCast SW (DQ3 (shapeCast S3 w) (shapeCast S3 v) (shapeCast S31 mn) (shapeCast S31 mx))) b

end Cert.Spec

end
-- ==== Proof.KI.Value0a.lean ====
import proofs.«133823_j23596550324544_2_alg».proof.Proof.Gen.KernelIdeal.Skeleton
import proofs.«133823_j23596550324544_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # The rescaling body's arithmetic at one entry, over the extended reals

The body maps four tiles — 32 rows of 128 groups of 32 entries (the weights and their corrections), and the two
factors of each group as 32 x 128 x 1 tiles — to one tile of the same extents as the weights. This file reads
that map at an entry (p, g, l): the two lane reductions become the folds of min and max over the 32 entries of
group (p, g); the factor tiles and the step and offset computed from them, which exist once per group, are read at
(p, g, 0); everything else acts entry by entry. The result is the closed formula of the specification. -/

noncomputable section

namespace Cert.KernelIdeal.Hand

open Idealize.ShloMosaic Idealize.ShloMosaic.ValueIdx
open Cert.KernelIdeal Cert.KernelIdeal.Gen

section Layout
variable {α : Type}

/-- An [a, b] array cast to [a, b, 1] reads, at (i, j, u), the operand at (i, j), whatever the unit coordinate u. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast along its last axis to [a, b, c] reads, at (i, j, l), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index over (i, j) with coordinate l put back on the dropped last axis is (i, j, l). -/
theorem lift_last_ix2 {a b c : ℕ} (h : (⟨3, ![a, b, c]⟩ : Shape).Reduces [2] ⟨2, ![a, b]⟩) (i : Fin a) (j : Fin b) (l : Fin c) :
    h.lift (ix2 i j) l = ix3 i j l :=
  funext fun ax => Fin.ext (match ax with | ⟨0, _⟩ => rfl | ⟨1, _⟩ => rfl | ⟨2, _⟩ => rfl)

end Layout

section Lanes

/-- The lane minimum of a [32,128,32] tile at (p, g): the fold of min from +∞ over the 32 lanes of group (p, g). -/
theorem minLane (src : FVec Ideal S32x128x32 .f32) (h : S32x128x32.Reduces [2] S32x128) (hφ : FKind.Formats .f32)
    (hacc : (0x7F800000#32 : BitVec 32) = FKind.minimumf.neutral .f32 hφ) (p : Fin 32) (g : Fin 128) :
    multiReduction .minimumf [2] S32x128 src 0x7F800000#32 h hφ hacc (ix2 p g)
      = (Finset.univ : Finset (Fin 32)).fold min Cert.Spec.cpinf (fun l => src (ix3 p g l)) := by
  refine (multiReduction_minimumf_eq_fold src _ h hφ hacc (ix2 p g)).trans ?_
  refine (h.fold_filter_drop_single _ _ src (ix2 p g)).trans ?_
  have e : (src ∘ h.lift (ix2 p g)) = fun l => src (ix3 p g l) := funext fun l => congrArg src (lift_last_ix2 h p g l)
  rw [e]; rfl

/-- The lane maximum likewise: the fold of max from -∞. -/
theorem maxLane (src : FVec Ideal S32x128x32 .f32) (h : S32x128x32.Reduces [2] S32x128) (hφ : FKind.Formats .f32)
    (hacc : (0xFF800000#32 : BitVec 32) = FKind.maximumf.neutral .f32 hφ) (p : Fin 32) (g : Fin 128) :
    multiReduction .maximumf [2] S32x128 src 0xFF800000#32 h hφ hacc (ix2 p g)
      = (Finset.univ : Finset (Fin 32)).fold max Cert.Spec.cninf (fun l => src (ix3 p g l)) := by
  refine (Ideal.multiReduction_maximumf_single src _ h hφ hacc (ix2 p g)).trans ?_
  have e : (src ∘ h.lift (ix2 p g)) = fun l => src (ix3 p g l) := funext fun l => congrArg src (lift_last_ix2 h p g l)
  rw [e]; rfl

end Lanes

/-- Rounding to the nearest integer, ties to even, acts entry by entry. -/
theorem roundeven_apply {s : Shape} {φ : FTy} (a : FVec Ideal s φ) (i : s.Idx) : roundeven a i = Ideal.liftRound Ideal.roundHalfEven (a i) := rfl

/-- The body's value at entry (p, g, l) of the tile: the specification's formula of the group's smallest and largest
    entries, the group's two factors, the entry and its correction. -/
theorem pay_apply (x0 x1 : Vec Ideal S32x128x32 .f32) (x2 x3 : Vec Ideal S32x128x1 .f32) (p : Fin 32) (g : Fin 128) (l : Fin 32) :
    k0_pay1 x0 x1 x2 x3 (ix3 p g l)
      = Cert.Spec.entryOf ((Finset.univ : Finset (Fin 32)).fold min Cert.Spec.cpinf (fun l' => x0 (ix3 p g l')))
          ((Finset.univ : Finset (Fin 32)).fold max Cert.Spec.cninf (fun l' => x0 (ix3 p g l')))
          (x2 (ix3 p g 0)) (x3 (ix3 p g 0)) (x0 (ix3 p g l)) (x1 (ix3 p g l)) := by
  unfold k0_pay1
  simp only [shapeCast_self]
  simp only [truncf_apply, mulf_apply, subf_apply, addf_apply, divf_apply, maximumf_apply, minimumf_apply, roundeven_apply,
    broadcast_apply, broadcastTo_ab1_abc_apply, shapeCast_ab_ab1_apply, minLane, maxLane]
  have hmin := minLane x0 reduces_S32x128x32_S32x128 (.inl rfl) rfl p g
  have hmax := maxLane x0 reduces_S32x128x32_S32x128 (.inl rfl) rfl p g
  rw [hmin, hmax]
  rfl

end Cert.KernelIdeal.Hand

end
-- ==== Proof.KI.Value0.lean ====
import proofs.«133823_j23596550324544_2_alg».proof.Proof.KI.Region0
import proofs.«133823_j23596550324544_2_alg».proof.Proof.KI.Value0a
import proofs.«133823_j23596550324544_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # From the tiles to the whole array

Grid point t of the first pipeline holds rows 32 t … 32 t + 31 of each of its five arrays (every index map is
t ↦ (t, 0, 0)). A group's 32 entries lie in one row, so the smallest and largest entry of a group of the array are
those of the same group of the tile: what point t writes back is the restriction to its rows of ONE function of the
four input arrays, the specification's. The 128 tiles cover the 4096 rows, so after the last point the output array
is that function everywhere. -/

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

theorem hz3 : (![0, 0, 0] : Fin 3 → Nat) = fun _ => 0 := funext fun a => by fin_cases a <;> rfl

/-- Row p of tile T is row 32 T + p of the array. -/
def rowOf (T : ℕ) (hT : T < 128) (p : Fin 32) : Fin 4096 := ⟨32 * T + p.val, by have := p.isLt; omega⟩

theorem lt_N0 (t : Fin cfg0.N) : t.val < 128 := t.isLt.trans_eq N_0

/-- If four tiles are rows 32 T … 32 T + 31 of four arrays, the body's value at entry (p, g, l) of the tile is the
    specification at entry (32 T + p, g, l) of the arrays: the group's extreme entries are found inside the tile. -/
theorem pay_block (A0 A1 : Cert.Spec.S3.Idx → EReal) (A2 A3 : Cert.Spec.S31.Idx → EReal)
    (x0 x1 : Vec Ideal S32x128x32 .f32) (x2 x3 : Vec Ideal S32x128x1 .f32) (T : ℕ) (hT : T < 128)
    (h0 : ∀ (p : Fin 32) (g : Fin 128) (l : Fin 32), x0 (ix3 p g l) = A0 (ix3 (rowOf T hT p) g l))
    (h1 : ∀ (p : Fin 32) (g : Fin 128) (l : Fin 32), x1 (ix3 p g l) = A1 (ix3 (rowOf T hT p) g l))
    (h2 : ∀ (p : Fin 32) (g : Fin 128), x2 (ix3 p g 0) = A2 (ix3 (rowOf T hT p) g 0))
    (h3 : ∀ (p : Fin 32) (g : Fin 128), x3 (ix3 p g 0) = A3 (ix3 (rowOf T hT p) g 0))
    (p : Fin 32) (g : Fin 128) (l : Fin 32) :
    k0_pay1 x0 x1 x2 x3 (ix3 p g l) = Cert.Spec.DQ3 A0 A1 A2 A3 (ix3 (rowOf T hT p) g l) := by
  rw [pay_apply]
  show _ = Cert.Spec.entryOf (Cert.Spec.glo A0 (rowOf T hT p) g) (Cert.Spec.ghi A0 (rowOf T hT p) g)
    (A2 (ix3 (rowOf T hT p) g 0)) (A3 (ix3 (rowOf T hT p) g 0)) (A0 (ix3 (rowOf T hT p) g l)) (A1 (ix3 (rowOf T hT p) g l))
  unfold Cert.Spec.glo Cert.Spec.ghi
  simp only [h0, h1, h2, h3]

/-- Every index map of the pipeline is t ↦ (t, 0, 0): decided once over the 128 points. -/
theorem idx_facts0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

section Blocks
variable (V : (c : Dev nD) → (b : Ref sig .tc) → Buf (Elt Ideal) ((c : Thread nD τ).loc b))

/-- Window 0's tile at point t is rows 32 t … of its array. -/
theorem iblk0_0_apply (c : Dev nD) (t : Fin cfg0.N) (p : Fin 32) (g : Fin 128) (l : Fin 32) :
    (iblk0 V c 0 t : Vec Ideal S32x128x32 .f32) (ix3 p g l)
      = (V c main_v0 : S4096x128x32.Idx → EReal) (ix3 (rowOf t.val (lt_N0 t) p) g l) := by
  obtain ⟨⟨e0, e1, e2⟩, -⟩ := idx_facts0 t
  unfold iblk0
  rw [View.read_apply]
  show V c main_v0 _ = V c main_v0 _
  refine congrArg (V c main_v0) ?_
  funext a
  apply Fin.ext
  match a with
  | ⟨0, _⟩ => show win0_0.index t (0 : Fin 3) * 32 + 1 * p.val = 32 * t.val + p.val; rw [e0]; omega
  | ⟨1, _⟩ => show win0_0.index t (1 : Fin 3) * 128 + 1 * g.val = g.val; rw [e1]; omega
  | ⟨2, _⟩ => show win0_0.index t (2 : Fin 3) * 32 + 1 * l.val = l.val; rw [e2]; omega

/-- Window 1's tile at point t is rows 32 t … of its array. -/
theorem iblk0_1_apply (c : Dev nD) (t : Fin cfg0.N) (p : Fin 32) (g : Fin 128) (l : Fin 32) :
    (iblk0 V c 1 t : Vec Ideal S32x128x32 .f32) (ix3 p g l)
      = (V c main_v1 : S4096x128x32.Idx → EReal) (ix3 (rowOf t.val (lt_N0 t) p) g l) := by
  obtain ⟨-, ⟨e0, e1, e2⟩, -⟩ := idx_facts0 t
  unfold iblk0
  rw [View.read_apply]
  show V c main_v1 _ = V c main_v1 _
  refine congrArg (V c main_v1) ?_
  funext a
  apply Fin.ext
  match a with
  | ⟨0, _⟩ => show win0_1.index t (0 : Fin 3) * 32 + 1 * p.val = 32 * t.val + p.val; rw [e0]; omega
  | ⟨1, _⟩ => show win0_1.index t (1 : Fin 3) * 128 + 1 * g.val = g.val; rw [e1]; omega
  | ⟨2, _⟩ => show win0_1.index t (2 : Fin 3) * 32 + 1 * l.val = l.val; rw [e2]; omega

/-- Window 2's tile (one factor per group) at point t is rows 32 t … of its array. -/
theorem iblk0_2_apply (c : Dev nD) (t : Fin cfg0.N) (p : Fin 32) (g : Fin 128) :
    (iblk0 V c 2 t : Vec Ideal S32x128x1 .f32) (ix3 p g 0)
      = (V c main_v2 : S4096x128x1.Idx → EReal) (ix3 (rowOf t.val (lt_N0 t) p) g 0) := by
  obtain ⟨-, -, ⟨e0, e1, e2⟩, -⟩ := idx_facts0 t
  unfold iblk0
  rw [View.read_apply]
  show V c main_v2 _ = V c main_v2 _
  refine congrArg (V c main_v2) ?_
  funext a
  apply Fin.ext
  match a with
  | ⟨0, _⟩ => show win0_2.index t (0 : Fin 3) * 32 + 1 * p.val = 32 * t.val + p.val; rw [e0]; omega
  | ⟨1, _⟩ => show win0_2.index t (1 : Fin 3) * 128 + 1 * g.val = g.val; rw [e1]; omega
  | ⟨2, _⟩ => show win0_2.index t (2 : Fin 3) * 1 + 1 * 0 = 0; rw [e2]

/-- Window 3's tile likewise. -/
theorem iblk0_3_apply (c : Dev nD) (t : Fin cfg0.N) (p : Fin 32) (g : Fin 128) :
    (iblk0 V c 3 t : Vec Ideal S32x128x1 .f32) (ix3 p g 0)
      = (V c main_v3 : S4096x128x1.Idx → EReal) (ix3 (rowOf t.val (lt_N0 t) p) g 0) := by
  obtain ⟨-, -, -, ⟨e0, e1, e2⟩, -⟩ := idx_facts0 t
  unfold iblk0
  rw [View.read_apply]
  show V c main_v3 _ = V c main_v3 _
  refine congrArg (V c main_v3) ?_
  funext a
  apply Fin.ext
  match a with
  | ⟨0, _⟩ => show win0_3.index t (0 : Fin 3) * 32 + 1 * p.val = 32 * t.val + p.val; rw [e0]; omega
  | ⟨1, _⟩ => show win0_3.index t (1 : Fin 3) * 128 + 1 * g.val = g.val; rw [e1]; omega
  | ⟨2, _⟩ => show win0_3.index t (2 : Fin 3) * 1 + 1 * 0 = 0; rw [e2]

/-- What point t writes back is the specification's array, read through the point's tile. -/
theorem flushed4_eq (c : Dev nD) (t : Fin cfg0.N) :
    (dat0 (F := Ideal) V c).flushed 4 t
      = ((cfg0.win 4).blk t).view.read (Elt Ideal) (Cert.Spec.DQ3 (V c main_v0) (V c main_v1) (V c main_v2) (V c main_v3)) := by
  show (cfg0.win 4).cut (grid0.coords t) ((dat0 V c).after 4 t) = _
  rw [after0_4]
  unfold out0_4
  rw [View.canon_unit_zero hz3]
  simp only [View.ld_unit_zero (S := S32x128x32) hz3, View.ld_unit_zero (S := S32x128x1) hz3]
  obtain ⟨-, -, -, -, ⟨e0, e1, e2⟩⟩ := idx_facts0 t
  funext j
  rw [View.read_apply]
  obtain ⟨p, g, l, hj⟩ : ∃ (p : Fin 32) (g : Fin 128) (l : Fin 32), (cfg0.win 4).xinj (grid0.coords t) j = ix3 p g l :=
    ⟨_, _, _, eq_ix3 _⟩
  have hemb : ((cfg0.win 4).blk t).view.emb j = ix3 (rowOf t.val (lt_N0 t) p) g l := by
    funext a
    apply Fin.ext
    match a with
    | ⟨0, _⟩ =>
      show win0_4.index t (0 : Fin 3) * 32 + 1 * ((cfg0.win 4).xinj (grid0.coords t) j (0 : Fin 3)).val = 32 * t.val + p.val
      rw [e0, hj]; show t.val * 32 + 1 * p.val = _; omega
    | ⟨1, _⟩ =>
      show win0_4.index t (1 : Fin 3) * 128 + 1 * ((cfg0.win 4).xinj (grid0.coords t) j (1 : Fin 3)).val = g.val
      rw [e1, hj]; show 0 * 128 + 1 * g.val = _; omega
    | ⟨2, _⟩ =>
      show win0_4.index t (2 : Fin 3) * 32 + 1 * ((cfg0.win 4).xinj (grid0.coords t) j (2 : Fin 3)).val = l.val
      rw [e2, hj]; show 0 * 32 + 1 * l.val = _; omega
  show k0_pay1 (iblk0 V c 0 t) (iblk0 V c 1 t) (iblk0 V c 2 t) (iblk0 V c 3 t) ((cfg0.win 4).xinj (grid0.coords t) j)
    = Cert.Spec.DQ3 (V c main_v0) (V c main_v1) (V c main_v2) (V c main_v3) (((cfg0.win 4).blk t).view.emb j)
  rw [hj, hemb]
  exact pay_block (V c main_v0) (V c main_v1) (V c main_v2) (V c main_v3)
    (iblk0 V c 0 t) (iblk0 V c 1 t) (iblk0 V c 2 t) (iblk0 V c 3 t) t.val (lt_N0 t)
    (iblk0_0_apply V c t) (iblk0_1_apply V c t) (iblk0_2_apply V c t) (iblk0_3_apply V c t) p g l

/-- An index of the output array is in point t's tile iff each coordinate is in the tile's range on its axis. -/
theorem mem_blk4 (t : Fin cfg0.N) (i : S4096x128x32.Idx) :
    i ∈ ((cfg0.win 4).blk t).view.set ↔ ∀ a : Fin 3, win0_4.index t a * S32x128x32.size a ≤ (i a).val
      ∧ (i a).val < win0_4.index t a * S32x128x32.size a + S32x128x32.size a := by
  show i ∈ ((View.whole main_v4).slice (win0_4.rect t)).set ↔ _
  rw [View.set_slice_whole, Rect.mem_set_unit]
  exact Iff.rfl

/-- Row r of the output array is in the tile of point r / 32. -/
theorem cover4 (i : S4096x128x32.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  have hi2 : (i 2).val < 32 := (i 2).isLt
  have hN : cfg0.N = 128 := N_0
  have ht : (i 0).val / 32 < cfg0.N := by rw [hN]; omega
  refine ⟨⟨(i 0).val / 32, ht⟩, flush0_4 _, ?_⟩
  obtain ⟨-, -, -, -, ⟨e0, e1, e2⟩⟩ := idx_facts0 ⟨(i 0).val / 32, ht⟩
  rw [mem_blk4]
  intro a
  match a with
  | ⟨0, _⟩ =>
    show win0_4.index ⟨(i 0).val / 32, ht⟩ (0 : Fin 3) * 32 ≤ (i 0).val ∧ (i 0).val < win0_4.index ⟨(i 0).val / 32, ht⟩ (0 : Fin 3) * 32 + 32
    rw [e0]; show (i 0).val / 32 * 32 ≤ (i 0).val ∧ (i 0).val < (i 0).val / 32 * 32 + 32; omega
  | ⟨1, _⟩ =>
    show win0_4.index ⟨(i 0).val / 32, ht⟩ (1 : Fin 3) * 128 ≤ (i 1).val ∧ (i 1).val < win0_4.index ⟨(i 0).val / 32, ht⟩ (1 : Fin 3) * 128 + 128
    rw [e1]; omega
  | ⟨2, _⟩ =>
    show win0_4.index ⟨(i 0).val / 32, ht⟩ (2 : Fin 3) * 32 ≤ (i 2).val ∧ (i 2).val < win0_4.index ⟨(i 0).val / 32, ht⟩ (2 : Fin 3) * 32 + 32
    rw [e2]; omega

end Blocks

/-- After the last point the pipeline's output array is the specification's function of the four input arrays as the
    region found them. -/
theorem final0 (V : (c : Dev nD) → (b : Ref sig .tc) → Buf (Elt Ideal) ((c : Thread nD τ).loc b)) (c : Dev nD) :
    (dat0 (F := Ideal) V c).arrAt 4 cfg0.N = Cert.Spec.DQ3 (V c main_v0) (V c main_v1) (V c main_v2) (V c main_v3) :=
  (dat0 V c).arrAt_eq_of_cover 4 (Cert.Spec.DQ3 (V c main_v0) (V c main_v1) (V c main_v2) (V c main_v3))
    (fun t _ => flushed4_eq V c t) cover4

end Cert.KernelIdeal.Hand

end
-- ==== Proof.KI.R1Pieces.lean ====
/-
  What each case of the second region's body leaves, as plain terms of the body's arithmetic: the accumulator after a
  point with k = 0 is the block product added to the reset value; after any other point, the block product added to
  what it held; the output block at k = 7 is that accumulator plus the bias row.
-/
import proofs.«133823_j23596550324544_2_alg».proof.Proof.KI.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz_sq : (![0, 0] : Fin S1024x1024.rank → Nat) = fun _ => 0 := by funext a; fin_cases a <;> rfl
theorem hz_xw : (![0, 0] : Fin S1024x512.rank → Nat) = fun _ => 0 := by funext a; fin_cases a <;> rfl
theorem hz_b : (![0, 0] : Fin S1x1024.rank → Nat) = fun _ => 0 := by funext a; fin_cases a <;> rfl

theorem sout1_A_eq (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x512 .f32) (x1 : Vec F S1024x512 .bf16) (x2 : Vec F S1x1024 .f32) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  rw [View.canon_cons_unit_zero hz_sq]
  sl_unfold_words
  rw [View.readCov_unit_zero _ hz_sq]
  simp only [View.readAt_eq_ld, harg3.read_unread, harg4.read_unread]
  rw [View.ld_unit_zero (S := S1024x512) hz_xw, View.ld_unit_zero (S := S1024x512) hz_xw]

theorem sout1_B_eq (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x512 .f32) (x1 : Vec F S1024x512 .bf16) (x2 : Vec F S1x1024 .f32) (xs0 : Vec F S1024x1024 .f32) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  rw [View.canon_cons_unit_zero hz_sq]
  sl_unfold_words
  simp only [View.readAt_eq_ld, harg3.read_unread, harg4.read_unread, harg7.read_unread]
  rw [View.ld_unit_zero (S := S1024x512) hz_xw, View.ld_unit_zero (S := S1024x512) hz_xw, View.ld_unit_zero (S := S1024x1024) hz_sq]

theorem sout1_C_eq (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .bf16) (x2 : Vec F S1x1024 .f32) (xs0 : Vec F S1024x1024 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_cons_unit_zero hz_sq]
  simp only [View.readAt_eq_ld, harg3.read_unread, harg4.read_unread, harg7.read_unread]
  rw [View.ld_unit_zero (S := S1024x512) hz_xw, View.ld_unit_zero (S := S1024x512) hz_xw, View.ld_unit_zero (S := S1024x1024) hz_sq]

theorem out1_C_eq (c : Dev nD) (i : grid1.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .bf16) (x2 : Vec F S1x1024 .f32) (xs0 : Vec F S1024x1024 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  rw [View.canon_cons_unit_zero hz_sq]
  sl_unfold_words
  rw [View.readCov_unit_zero _ hz_sq]
  simp only [View.readAt_eq_ld, harg3.read_unread, harg4.read_unread, harg5.read_unread, harg7.read_unread]
  rw [View.ld_unit_zero (S := S1024x512) hz_xw, View.ld_unit_zero (S := S1024x512) hz_xw, View.ld_unit_zero (S := S1024x1024) hz_sq, View.ld_unit_zero (S := S1x1024) hz_b]

end Cert.KernelIdeal.Hand

end
-- ==== Proof.KI.Pay1.lean ====
/-
  The matrix-product kernel's three stored values, read at an index over the extended reals.

  The kernel keeps a 1024 x 1024 accumulator.  It starts at the zero word (the real 0); each step adds, at (p, q), the sum
  over the 512 columns kk of the block of  left (p, kk) * right (q, kk)  (both operands contract their second axis; the
  narrowing of the left operand is the identity here); the last step adds the bias row's entry at q.
-/
import proofs.«133823_j23596550324544_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The accumulator's first value: the zero word everywhere, the extended real 0. -/
theorem pay1_at (p q : Fin 1024) : k1_pay1 (F := Ideal) (ix2 p q) = 0 := by
  unfold k1_pay1
  simp only [shapeCast_self]
  exact Ideal.ofBits_zero_f32

/-- The left operand's index of the product at (p, q) and contraction position k has row p. -/
theorem lhs_0 (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
/-- The right operand's has row q. -/
theorem rhs_0 (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- One step of the accumulation: the accumulator plus the product of row p of the left block with row q of the right
    block, over the block's 512 columns. -/
theorem pay2_at (x0 : Vec Ideal S1024x512 .f32) (x1 : Vec Ideal S1024x512 .bf16) (acc : Vec Ideal S1024x1024 .f32) (p q : Fin 1024) :
    k1_pay2 x0 x1 acc (ix2 p q) = acc (ix2 p q) + ∑ kk : Fin 512, x0 (ix2 p kk) * x1 (ix2 q kk) := by
  unfold k1_pay2
  simp only [shapeCast_self]
  rw [addf_apply]
  refine congrArg (acc (ix2 p q) + ·) ?_
  simp only [matmul]
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q)
      ((contrEquiv1 dot_S1024x512_S1024x512_S1024x1024_1_1_0_0_n_n 512 rfl rfl).symm k) = ix2 p k :=
    funext fun a => Fin.ext (by
      match a with
      | ⟨0, _⟩ => exact lhs_0 _ _
      | ⟨1, _⟩ => exact (dot_S1024x512_S1024x512_S1024x1024_1_1_0_0_n_n.lhsIdx_val_of_single rfl _ _).trans hk)
  have er : dot_S1024x512_S1024x512_S1024x1024_1_1_0_0_n_n.rhsIdx (ix2 p q)
      ((contrEquiv1 dot_S1024x512_S1024x512_S1024x1024_1_1_0_0_n_n 512 rfl rfl).symm k) = ix2 q k :=
    funext fun a => Fin.ext (by
      match a with
      | ⟨0, _⟩ => exact rhs_0 _ _
      | ⟨1, _⟩ => exact (dot_S1024x512_S1024x512_S1024x1024_1_1_0_0_n_n.rhsIdx_val_of_single rfl _ _).trans hk)
  rw [el, er]
  rfl

/-- The last step: the accumulator plus the bias row's entry of the column. -/
theorem pay3_at (acc : Vec Ideal S1024x1024 .f32) (b : Vec Ideal S1x1024 .f32) (p q : Fin 1024) :
    k1_pay3 acc b (ix2 p q) = acc (ix2 p q) + b (ix2 0 q) := by
  unfold k1_pay3
  simp only [shapeCast_self]
  rw [addf_apply, broadcastTo_1b_ab_apply]

end Cert.KernelIdeal.Hand

end
-- ==== Proof.LibTileSum.lean ====
/-
  Sums cut into tiles, over any additive commutative monoid: no subtraction and no cancellation is used, so every
  statement holds where infinite values are allowed.

  A sum over K·T consecutive indices is the sum over K tiles of the T terms of each tile; an accumulator that starts
  from zero and adds one tile's sum per step holds, after step n, the sum of tiles 0 … n.  Together, at 8 tiles of
  1024: the accumulator after the eighth tile is the sum over all 8192 indices.
-/
import Mathlib.Algebra.BigOperators.Fin

namespace Cert.TileSum

variable {M : Type*} [AddCommMonoid M]

/-- Position q of tile j, tiles of T, lies below K·T when j is below K:
    j·T + q < j·T + T = (j + 1)·T ≤ K·T. -/
theorem tile_lt {K T : ℕ} (j : Fin K) (q : Fin T) : j.val * T + q.val < K * T :=
  calc j.val * T + q.val < j.val * T + T := Nat.add_lt_add_left q.isLt _
    _ = (j.val + 1) * T := (Nat.succ_mul _ _).symm
    _ ≤ K * T := Nat.mul_le_mul_right _ j.isLt

/-- A running total over tiles is the sum of the tiles, when the recurrence is known only for the tiles below a
    bound N: if A 0 is 0 plus tile 0's sum and, for j + 1 < N, A (j + 1) is A j plus tile (j + 1)'s sum, then for
    n < N, A n is the double sum over the tiles 0 … n. -/
theorem running_total_below {T : ℕ} (N : ℕ) (g : ℕ → Fin T → M) (A : ℕ → M)
    (h0 : A 0 = 0 + ∑ q, g 0 q) (hs : ∀ j, j + 1 < N → A (j + 1) = A j + ∑ q, g (j + 1) q) (n : ℕ) (hn : n < N) :
    A n = ∑ j ∈ Finset.range (n + 1), ∑ q, g j q := by
  induction n with
  | zero => rw [h0, zero_add, Finset.sum_range_one]
  | succ n ih =>
    rw [hs n hn, ih (Nat.lt_of_succ_lt hn)]
    exact (Finset.sum_range_succ (fun j => ∑ q, g j q) (n + 1)).symm

/-- A running total over tiles is the sum of the tiles: if A 0 is 0 plus tile 0's sum and each later A is the
    previous plus that tile's sum, A n is the double sum up to n. -/
theorem running_total {T : ℕ} (g : ℕ → Fin T → M) (A : ℕ → M)
    (h0 : A 0 = 0 + ∑ q, g 0 q) (hs : ∀ j, A (j + 1) = A j + ∑ q, g (j + 1) q) (n : ℕ) :
    A n = ∑ j ∈ Finset.range (n + 1), ∑ q, g j q :=
  running_total_below (n + 1) g A h0 (fun j _ => hs j) n (Nat.lt_succ_self n)

/-- A sum over K·T consecutive indices is the sum over K tiles of T: index j·T + q is position q of tile j, and
    (j, q) ↦ j·T + q is a bijection from pairs onto the indices below K·T. -/
theorem sum_tiles (K T : ℕ) (f : Fin (K * T) → M) :
    ∑ n, f n = ∑ j : Fin K, ∑ q : Fin T, f ⟨j.val * T + q.val, tile_lt j q⟩ := by
  rw [← Equiv.sum_comp finProdFinEquiv f, Fintype.sum_prod_type]
  refine Finset.sum_congr rfl fun j _ => Finset.sum_congr rfl fun q _ => congrArg f (Fin.ext ?_)
  rw [finProdFinEquiv_apply_val, Nat.mul_comm, Nat.add_comm]

/-- Tile j of a function on 8192 indices, by position in the tile; zero from the ninth tile on. -/
def tile8 (f : Fin 8192 → M) (j : ℕ) (q : Fin 1024) : M :=
  if h : j < 8 then f ⟨j * 1024 + q.val, by omega⟩ else 0

/-- Below the ninth tile it is the function at index j·1024 + q. -/
theorem tile8_of_lt (f : Fin 8192 → M) (j : ℕ) (hj : j < 8) (q : Fin 1024) :
    tile8 f j q = f ⟨j * 1024 + q.val, by omega⟩ := dif_pos hj

/-- The two together at 8 tiles of 1024: the accumulator after the eighth tile is the sum over all 8192. -/
theorem acc_eight (f : Fin 8192 → M) (A : ℕ → M)
    (h0 : A 0 = 0 + ∑ q : Fin 1024, f ⟨0 * 1024 + q.val, by omega⟩)
    (hs : ∀ j, (hj : j + 1 < 8) → A (j + 1) = A j + ∑ q : Fin 1024, f ⟨(j + 1) * 1024 + q.val, by omega⟩) :
    A 7 = ∑ n : Fin 8192, f n := by
  have e0 : A 0 = 0 + ∑ q, tile8 f 0 q :=
    h0.trans (congrArg (0 + ·) (Finset.sum_congr rfl fun q _ => (tile8_of_lt f 0 (by omega) q).symm))
  have es : ∀ j, j + 1 < 8 → A (j + 1) = A j + ∑ q, tile8 f (j + 1) q := fun j hj =>
    (hs j hj).trans (congrArg (A j + ·) (Finset.sum_congr rfl fun q _ => (tile8_of_lt f (j + 1) hj q).symm))
  refine (running_total_below 8 (tile8 f) A e0 es 7 (by omega)).trans ?_
  refine Eq.trans ?_ (sum_tiles 8 1024 f).symm
  refine (Fin.sum_univ_eq_sum_range (fun j => ∑ q, tile8 f j q) 8).symm.trans ?_
  exact Finset.sum_congr rfl fun j _ => Finset.sum_congr rfl fun q _ => tile8_of_lt f j.val j.isLt q

end Cert.TileSum
-- ==== Proof.KI.Acc1.lean ====
/-
  What the second region leaves in its output array, over the extended reals: at row r and column o, the sum over all
  4096 positions k of x2 (r, k) * q (o, k), plus the bias row at o.

  The output block (i, j) is stored at the point (i, j, 7).  There the accumulator holds the reset value 0 plus, for
  each of the eight points (i, j, 0) … (i, j, 7), the product of that point's 1024 x 512 blocks of x2 and q; block k of
  x2's row tile i meets block k of q's row tile j, so the eight partial sums are the eight consecutive stretches of
  512 terms of the full sum.  Only the commutative monoid of addition is used: no entry needs to be finite.
-/
import proofs.«133823_j23596550324544_2_alg».proof.Proof.KI.R1Pieces
import proofs.«133823_j23596550324544_2_alg».proof.Proof.KI.Pay1
import proofs.«133823_j23596550324544_2_alg».proof.Proof.Spec
import proofs.«133823_j23596550324544_2_alg».proof.Proof.LibTileSum
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The accumulator as a fold over a run of eight points -/

/-- The two input blocks of point `n`, typed as plain arrays. -/
abbrev xb (c : Dev nD) (n : ℕ) (hn : n < cfg1.N) : Vec Ideal S1024x512 .f32 := iblk1 V c 0 ⟨n, hn⟩
abbrev wb (c : Dev nD) (n : ℕ) (hn : n < cfg1.N) : Vec Ideal S1024x512 .bf16 := iblk1 V c 1 ⟨n, hn⟩

/-- The accumulator after point `n`. -/
def accS (c : Dev nD) (n : ℕ) (hn : n < cfg1.N) : Vec Ideal S1024x1024 .f32 := (outsAt1 V c n hn).2
/-- Its value after a point with k = 0: the block product added to the reset value. -/
def aS (c : Dev nD) (n : ℕ) (hn : n < cfg1.N) : Vec Ideal S1024x1024 .f32 :=
  k1_pay2 (xb V c n hn) (wb V c n hn) (k1_pay1 (F := Ideal))
/-- Its step at any other point: the block product added to what it held. -/
def gS (c : Dev nD) (n : ℕ) (hn : n < cfg1.N) (acc : Vec Ideal S1024x1024 .f32) : Vec Ideal S1024x1024 .f32 :=
  k1_pay2 (xb V c n hn) (wb V c n hn) acc

/-- The accumulator after a point with k = 0. -/
theorem scratch_reset (c : Dev nD) (t : Fin cfg1.N) (h0 : t.val % 8 = 0) :
    accS V c t.val t.isLt = k1_pay2 (iblk1 V c 0 t) (iblk1 V c 1 t) (k1_pay1 (F := Ideal)) := by
  have h1 : ¬ t.val % 8 = 7 := by omega
  unfold accS
  rw [outsAt1_A V c t h0 h1]
  dsimp only
  rw [sout1_A_eq (F := Ideal)]

theorem accS_reset (c : Dev nD) (n : ℕ) (hn : n < cfg1.N) (h : n % 8 = 0) : accS V c n hn = aS V c n hn :=
  scratch_reset V c ⟨n, hn⟩ h

/-- The accumulator after a point with k ≠ 0: the block product added to what the point before left. -/
theorem scratch_step (c : Dev nD) (t : Fin cfg1.N) (h0 : ¬ t.val % 8 = 0) :
    accS V c t.val t.isLt
      = k1_pay2 (iblk1 V c 0 t) (iblk1 V c 1 t) (accS V c (t.val - 1) (Nat.lt_of_le_of_lt (Nat.sub_le _ _) t.isLt)) := by
  unfold accS
  by_cases h1 : t.val % 8 = 7
  · rw [outsAt1_C V c t h0 h1]
    dsimp only
    rw [sout1_C_eq (F := Ideal)]
  · rw [outsAt1_B V c t h0 h1]
    dsimp only
    rw [sout1_B_eq (F := Ideal)]

theorem accS_congr (c : Dev nD) {a b : ℕ} (e : a = b) (ha : a < cfg1.N) (hb : b < cfg1.N) : accS V c a ha = accS V c b hb := by
  subst e; rfl

theorem accS_step (c : Dev nD) (n : ℕ) (hn : n + 1 < cfg1.N) (h : ¬(n + 1) % 8 = 0) :
    accS V c (n + 1) hn = gS V c (n + 1) hn (accS V c n (Nat.lt_of_succ_lt hn)) :=
  (scratch_step V c ⟨n + 1, hn⟩ h).trans
    (congrArg (k1_pay2 (iblk1 V c 0 ⟨n + 1, hn⟩) (iblk1 V c 1 ⟨n + 1, hn⟩)) (accS_congr V c (Nat.add_sub_cancel n 1) _ _))

/-- The output block where it is stored (k = 7): the accumulator after that point plus the bias row. -/
theorem out_at_last (c : Dev nD) (t : Fin cfg1.N) (h1 : t.val % 8 = 7) :
    (outsAt1 V c t.val t.isLt).1 = k1_pay3 (accS V c t.val t.isLt) (iblk1 V c 2 t) := by
  have h0 : ¬ t.val % 8 = 0 := by omega
  unfold accS
  rw [outsAt1_C V c t h0 h1]
  dsimp only
  rw [out1_C_eq (F := Ideal), sout1_C_eq (F := Ideal)]

/-- One point's addend at an entry of the block: the product of the point's two input blocks there. -/
def addend (c : Dev nD) (n : ℕ) (j : S1024x1024.Idx) : EReal :=
  if h : n < cfg1.N then ∑ kk : Fin 512, xb V c n h (ix2 (j 0) kk) * wb V c n h (ix2 (j 1) kk) else 0

/-- At the last point of a run the accumulator is zero plus the eight addends of the run. -/
theorem accS_last (c : Dev nD) (t : Fin cfg1.N) (h1 : t.val % 8 = 7) (j : S1024x1024.Idx) :
    accS V c t.val t.isLt j = 0 + ∑ s ∈ Finset.range 8, addend V c (8 * (t.val / 8) + s) j := by
  have hN : cfg1.N = 256 := N_1
  have ht : t.val < 256 := lt_of_lt_of_eq t.isLt hN
  have h' : 8 * (t.val / 8) + t.val % 8 < cfg1.N := by rw [Nat.div_add_mod]; exact t.isLt
  rw [Pipeline.eq_accAt_of_mod (accS V c) 8 (aS V c) (gS V c) (fun n h e => accS_reset V c n h e)
    (fun n h e => accS_step V c n h e) (by norm_num) t.val t.isLt h']
  have hb : 8 * (t.val / 8) + 7 < cfg1.N := by omega
  have key := Pipeline.accAt_add_apply (aS V c) (gS V c) (fun _ => (0 : EReal)) (addend V c) (8 * (t.val / 8)) 7
    (fun h i => by
      obtain ⟨p, q, rfl⟩ : ∃ (p q : Fin 1024), i = ix2 p q := ⟨i 0, i 1, eq_ix2 i⟩
      unfold aS addend
      rw [dif_pos h, pay2_at, pay1_at])
    (fun n h acc i _ _ => by
      obtain ⟨p, q, rfl⟩ : ∃ (p q : Fin 1024), i = ix2 p q := ⟨i 0, i 1, eq_ix2 i⟩
      unfold gS addend
      rw [dif_pos h, pay2_at])
    7 (le_refl 7) hb j
  have e7 : t.val % 8 = 7 := h1
  have : Pipeline.accAt (aS V c) (gS V c) (8 * (t.val / 8)) (t.val % 8) h' = Pipeline.accAt (aS V c) (gS V c) (8 * (t.val / 8)) 7 hb := by
    congr 1
  rw [this]
  exact key

end Cert.KernelIdeal.Hand

end
-- ==== Proof.KI.Value1.lean ====
/-
  The second region's output array after the run is, entry by entry, the full product row against row plus the bias:
  what point (i, j, 7) writes back is block (i, j) of that one function, and the 8 x 4 blocks tile the array.
-/
import proofs.«133823_j23596550324544_2_alg».proof.Proof.KI.Acc1

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The three arrays the region reads, as it finds them, typed as plain arrays of extended reals. -/
abbrev X6 (c : Dev nD) : S8192x4096.Idx → EReal := V c main_v6
abbrev Q5 (c : Dev nD) : S4096x4096.Idx → EReal := V c main_v5
abbrev B7 (c : Dev nD) : S1x4096.Idx → EReal := V c main_v7

/-- The printed index maps over the 256 grid points t = (i, j, k) = (t / 32, (t / 8) mod 4, t mod 8). -/
theorem idx1_facts : ∀ t : Fin cfg1.N,
    win1_0.index t (0 : Fin 2) = t.val / 32 ∧ win1_0.index t (1 : Fin 2) = t.val % 8
    ∧ win1_1.index t (0 : Fin 2) = (t.val / 8) % 4 ∧ win1_1.index t (1 : Fin 2) = t.val % 8
    ∧ win1_2.index t (0 : Fin 2) = 0 ∧ win1_2.index t (1 : Fin 2) = (t.val / 8) % 4
    ∧ win1_3.index t (0 : Fin 2) = t.val / 32 ∧ win1_3.index t (1 : Fin 2) = (t.val / 8) % 4 :=
  (by decide +kernel : ∀ t : Fin grid1.N, _)

/-- Every output block is some point's with k = 7. -/
theorem idx1_onto : ∀ (q0 : Fin 8) (q1 : Fin 4), ∃ t : Fin cfg1.N, t.val % 8 = 7 ∧ win1_3.index t = ![q0.val, q1.val] :=
  (by decide +kernel : ∀ (q0 : Fin 8) (q1 : Fin 4), ∃ t : Fin grid1.N, t.val % 8 = 7 ∧ win1_3.index t = ![q0.val, q1.val])

/-- Entry (p, q) of what point t with k = 7 writes back is entry (1024 i + p, 1024 j + q) of the full product plus bias. -/
theorem block_entry (c : Dev nD) (t : Fin cfg1.N) (h1 : t.val % 8 = 7) (j : S1024x1024.Idx) :
    k1_pay3 (accS V c t.val t.isLt) (iblk1 V c 2 t) j
      = Cert.Spec.MM2 (V c main_v6) (V c main_v5) (V c main_v7) (((cfg1.win 3).blk t).view.emb j) := by
  obtain ⟨p, q, rfl⟩ : ∃ (p q : Fin 1024), j = ix2 p q := ⟨j 0, j 1, eq_ix2 j⟩
  have hN : cfg1.N = 256 := N_1
  have ht : t.val < 256 := lt_of_lt_of_eq t.isLt hN
  obtain ⟨-, -, -, -, f4, f5, f6, f7⟩ := idx1_facts t
  have hE : ((cfg1.win 3).blk t).view.emb (ix2 p q)
      = (ix2 (⟨(t.val / 32) * 1024 + p.val, by omega⟩ : Fin 8192) (⟨((t.val / 8) % 4) * 1024 + q.val, by omega⟩ : Fin 4096) : S8192x4096.Idx) := by
    funext a; apply Fin.ext
    match a with
    | ⟨0, _⟩ => show win1_3.index t (0 : Fin 2) * 1024 + 1 * p.val = (t.val / 32) * 1024 + p.val; omega
    | ⟨1, _⟩ => show win1_3.index t (1 : Fin 2) * 1024 + 1 * q.val = ((t.val / 8) % 4) * 1024 + q.val; omega
  rw [hE, pay3_at, accS_last V c t h1, zero_add]
  show _ = (∑ k : Fin 4096, X6 V c (ix2 (⟨(t.val / 32) * 1024 + p.val, by omega⟩ : Fin 8192) k)
      * Q5 V c (ix2 (⟨((t.val / 8) % 4) * 1024 + q.val, by omega⟩ : Fin 4096) k))
    + B7 V c (ix2 (0 : Fin 1) (⟨((t.val / 8) % 4) * 1024 + q.val, by omega⟩ : Fin 4096))
  congr 1
  · have hs := Cert.TileSum.sum_tiles (M := EReal) 8 512 (fun k : Fin (8 * 512) =>
      X6 V c (ix2 (⟨(t.val / 32) * 1024 + p.val, by omega⟩ : Fin 8192) k)
        * Q5 V c (ix2 (⟨((t.val / 8) % 4) * 1024 + q.val, by omega⟩ : Fin 4096) k))
    refine Eq.trans ?_ hs.symm
    rw [← Fin.sum_univ_eq_sum_range (fun s => addend V c (8 * (t.val / 8) + s) (ix2 p q)) 8]
    refine Finset.sum_congr rfl fun s _ => ?_
    have hs8 : s.val < 8 := s.isLt
    have hn : 8 * (t.val / 8) + s.val < cfg1.N := by omega
    unfold addend
    rw [dif_pos hn]
    refine Finset.sum_congr rfl fun kk _ => ?_
    have hk : kk.val < 512 := kk.isLt
    obtain ⟨g0, g1, g2, g3, -, -, -, -⟩ := idx1_facts ⟨8 * (t.val / 8) + s.val, hn⟩
    have g0' : win1_0.index ⟨8 * (t.val / 8) + s.val, hn⟩ (0 : Fin 2) = (8 * (t.val / 8) + s.val) / 32 := g0
    have g1' : win1_0.index ⟨8 * (t.val / 8) + s.val, hn⟩ (1 : Fin 2) = (8 * (t.val / 8) + s.val) % 8 := g1
    have g2' : win1_1.index ⟨8 * (t.val / 8) + s.val, hn⟩ (0 : Fin 2) = ((8 * (t.val / 8) + s.val) / 8) % 4 := g2
    have g3' : win1_1.index ⟨8 * (t.val / 8) + s.val, hn⟩ (1 : Fin 2) = (8 * (t.val / 8) + s.val) % 8 := g3
    congr 1
    · show X6 V c (((cfg1.win 0).blk ⟨8 * (t.val / 8) + s.val, hn⟩).view.emb (ix2 p kk)) = _
      refine congrArg (X6 V c) ?_
      funext a; apply Fin.ext
      match a with
      | ⟨0, _⟩ => show win1_0.index ⟨8 * (t.val / 8) + s.val, hn⟩ (0 : Fin 2) * 1024 + 1 * p.val = (t.val / 32) * 1024 + p.val; omega
      | ⟨1, _⟩ => show win1_0.index ⟨8 * (t.val / 8) + s.val, hn⟩ (1 : Fin 2) * 512 + 1 * kk.val = s.val * 512 + kk.val; omega
    · show Q5 V c (((cfg1.win 1).blk ⟨8 * (t.val / 8) + s.val, hn⟩).view.emb (ix2 q kk)) = _
      refine congrArg (Q5 V c) ?_
      funext a; apply Fin.ext
      match a with
      | ⟨0, _⟩ => show win1_1.index ⟨8 * (t.val / 8) + s.val, hn⟩ (0 : Fin 2) * 1024 + 1 * q.val = ((t.val / 8) % 4) * 1024 + q.val; omega
      | ⟨1, _⟩ => show win1_1.index ⟨8 * (t.val / 8) + s.val, hn⟩ (1 : Fin 2) * 512 + 1 * kk.val = s.val * 512 + kk.val; omega
  · show B7 V c (((cfg1.win 2).blk t).view.emb (ix2 (0 : Fin 1) q)) = _
    refine congrArg (B7 V c) ?_
    funext a; apply Fin.ext
    match a with
    | ⟨0, _⟩ => show win1_2.index t (0 : Fin 2) * 1 + 1 * 0 = 0; omega
    | ⟨1, _⟩ => show win1_2.index t (1 : Fin 2) * 1024 + 1 * q.val = ((t.val / 8) % 4) * 1024 + q.val; omega

/-- What a point that writes the output block back writes is its block of the one whole-array function. -/
theorem flushed3_eq (c : Dev nD) (t : Fin cfg1.N) (hf : (cfg1.win 3).flush t = true) :
    (dat1 V c).flushed 3 t = ((cfg1.win 3).blk t).view.read (Elt Ideal) (Cert.Spec.MM2 (V c main_v6) (V c main_v5) (V c main_v7)) := by
  have h1 : t.val % 8 = 7 := (flush1_3 t).mp hf
  show (cfg1.win 3).cut (grid1.coords t) ((dat1 V c).after 3 t) = _
  rw [after1_3, out_at_last V c t h1]
  funext j
  exact block_entry V c t h1 j

/-- An index of the array is in point t's block iff each coordinate is in the block's range. -/
theorem mem_blk3 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v8).slice (win1_3.rect t)).set ↔ _
  rw [View.set_slice_whole, Rect.mem_set_unit]
  exact Iff.rfl

/-- Every entry of the array lies in a block that is written back. -/
theorem cover3 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, h7, ht⟩ := idx1_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, (flush1_3 t).mpr h7, ?_⟩
  rw [mem_blk3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- THE OUTPUT ARRAY after the second region. -/
theorem final1 (c : Dev nD) :
    (dat1 (F := Ideal) V c).arrAt 3 cfg1.N = Cert.Spec.MM2 (V c main_v6) (V c main_v5) (V c main_v7) :=
  (dat1 V c).arrAt_eq_of_cover 3 _ (fun t hf => flushed3_eq V c t hf) cover3

end Cert.KernelIdeal.Hand

end
-- ==== Proof.SpecRows.lean ====
/-
  A layout fact about the specification, over no program: multiplying the 8192 rows of x (its 4 x 2048 rows read in
  row-major order) against the rows of q, adding the bias read as a single row, and reading the 8192 x 4096 result back
  as 4 x 2048 x 4096, is the row-by-row product `Out`.  Row (b', s) of x is row b' * 2048 + s of the 8192.
-/
import proofs.«133823_j23596550324544_2_alg».proof.Proof.Spec
import Idealize.ShloMosaic.Lib.Pipeline.Value
import Idealize.ShloMosaic.Lib.ValueIdx

noncomputable section

open scoped BigOperators

namespace Cert.Spec

open Idealize.ShloMosaic Idealize.ShloMosaic.ValueIdx

/-- Row (b', s) of x is row b' * 2048 + s of its reading as 8192 rows. -/
theorem x_rows (x : SX.Idx → EReal) (b' : Fin 4) (s : Fin 2048) (k : Fin 4096) (hr : b'.val * 2048 + s.val < 8192) :
    (shapeCast S2 x) (ix2 (⟨b'.val * 2048 + s.val, hr⟩ : Fin 8192) k) = x (ix3 b' s k) :=
  shapeCast_apply x _ _ _ (by rw [Shape.rowMajor_val_two, Shape.rowMajor_val_three]; rfl)

/-- The bias vector read as one row. -/
theorem b_row (b : SB.Idx → EReal) (o : Fin 4096) : (shapeCast SB2 b) (ix2 (0 : Fin 1) o) = b (ix1 o) :=
  shapeCast_apply b _ _ _ (by rw [Shape.rowMajor_val_one, Shape.rowMajor_val_two]; show o.val = 0 * 4096 + o.val; omega)

/-- The product taken over the 8192 rows and read back as 4 x 2048 rows is the product taken row by row. -/
theorem cast_MM2 (x : SX.Idx → EReal) (q : SW.Idx → EReal) (b : SB.Idx → EReal) :
    shapeCast SX (MM2 (shapeCast S2 x) q (shapeCast SB2 b)) = Out x q b := by
  funext i
  obtain ⟨b', s, o, rfl⟩ : ∃ (b' : Fin 4) (s : Fin 2048) (o : Fin 4096), i = ix3 b' s o := ⟨i 0, i 1, i 2, eq_ix3 i⟩
  have hr : b'.val * 2048 + s.val < 8192 := by have := b'.isLt; have := s.isLt; omega
  rw [shapeCast_apply _ _ (ix3 b' s o) (ix2 (⟨b'.val * 2048 + s.val, hr⟩ : Fin 8192) o)
    (by rw [Shape.rowMajor_val_two, Shape.rowMajor_val_three]; rfl)]
  show (∑ k : Fin 4096, (shapeCast S2 x) (ix2 (⟨b'.val * 2048 + s.val, hr⟩ : Fin 8192) k) * q (ix2 o k))
      + (shapeCast SB2 b) (ix2 (0 : Fin 1) o)
    = (∑ k : Fin 4096, x (ix3 b' s k) * q (ix2 o k)) + b (ix1 o)
  rw [b_row]
  simp only [x_rows]

end Cert.Spec

end
-- ==== Proof.KI.Final.lean ====
/-
  The idealized kernel program's result, as one function of its six arguments: the reshapes around the two regions
  are read off the host operations, the regions' output arrays are the two functions proved of them, and the last
  reshape of the row-against-row product is the specification's own arrangement.
-/
import proofs.«133823_j23596550324544_2_alg».proof.Proof.KI.Run
import proofs.«133823_j23596550324544_2_alg».proof.Proof.KI.Value0
import proofs.«133823_j23596550324544_2_alg».proof.Proof.KI.Value1
import proofs.«133823_j23596550324544_2_alg».proof.Proof.SpecRows
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

open Idealize.ShloMosaic.StableHlo

section Host
variable (X : Valuation τ sig (Elt Ideal))

theorem h0_v0 : after (hostOps0 (F := Ideal)) X (main_v0 : DevRef τ sig) = shapeCast S4096x128x32 (X (main_arg1 : DevRef τ sig)) shapeCasts_S4096x4096_S4096x128x32 := by
  after_results; rfl
theorem h0_v1 : after (hostOps0 (F := Ideal)) X (main_v1 : DevRef τ sig) = shapeCast S4096x128x32 (X (main_arg2 : DevRef τ sig)) shapeCasts_S4096x4096_S4096x128x32 := by
  after_results; rfl
theorem h0_v2 : after (hostOps0 (F := Ideal)) X (main_v2 : DevRef τ sig) = shapeCast S4096x128x1 (X (main_arg3 : DevRef τ sig)) shapeCasts_S4096x128_S4096x128x1 := by
  after_results; rfl
theorem h0_v3 : after (hostOps0 (F := Ideal)) X (main_v3 : DevRef τ sig) = shapeCast S4096x128x1 (X (main_arg4 : DevRef τ sig)) shapeCasts_S4096x128_S4096x128x1 := by
  after_results; rfl
theorem h1_v5 : after (hostOps1 (F := Ideal)) X (main_v5 : DevRef τ sig) = shapeCast S4096x4096 (X (main_v4 : DevRef τ sig)) shapeCasts_S4096x128x32_S4096x4096 := by
  after_results; rfl
theorem h1_v6 : after (hostOps1 (F := Ideal)) X (main_v6 : DevRef τ sig) = shapeCast S8192x4096 (X (main_arg0 : DevRef τ sig)) shapeCasts_S4x2048x4096_S8192x4096 := by
  after_results; rfl
theorem h1_v7 : after (hostOps1 (F := Ideal)) X (main_v7 : DevRef τ sig) = shapeCast S1x4096 (X (main_arg5 : DevRef τ sig)) shapeCasts_S4096_S1x4096 := by
  after_results; rfl
theorem h2_v9 : after (hostOps2 (F := Ideal)) X (main_v9 : DevRef τ sig) = shapeCast S4x2048x4096 (X (main_v8 : DevRef τ sig)) shapeCasts_S8192x4096_S4x2048x4096 := by
  after_results; rfl

end Host

variable (m : (ℓ : Loc nD τ sig) → Buf (Elt Ideal) ℓ) (ρ : Dev nD → PrngReg)

/-- An argument no region touches and no reshape writes is, when the second stretch of reshapes reads it, as launched. -/
theorem W2_main_arg0 (c : Dev nD) : W2 m ρ c (Proc.devRef .tc main_arg0) = m ((c : Thread nD τ).loc main_arg0) :=
  (W2_of_ne m ρ c main_arg0 (by decide)).trans ((StableHlo.after_of_writes_sub hostOps0 _ hostOps0_writes (r := main_arg0) (by decide)).trans rfl)
theorem W2_main_arg5 (c : Dev nD) : W2 m ρ c (Proc.devRef .tc main_arg5) = m ((c : Thread nD τ).loc main_arg5) :=
  (W2_of_ne m ρ c main_arg5 (by decide)).trans ((StableHlo.after_of_writes_sub hostOps0 _ hostOps0_writes (r := main_arg5) (by decide)).trans rfl)

/-- THE RESULT: after the run the result buffer holds the specification's function of the launch arguments. -/
theorem result_eq (c : Dev nD) :
    W5 (F := Ideal) m ρ c (Proc.devRef .tc main_v9)
      = Cert.Spec.Whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e4 : W2 m ρ c (Proc.devRef .tc main_v4) = Cert.Spec.DQ3 (V1 m ρ c main_v0) (V1 m ρ c main_v1) (V1 m ρ c main_v2) (V1 m ρ c main_v3) :=
    (W2_arr m ρ c 4).trans (final0 (V1 m ρ) c)
  have e8 : W4 m ρ c (Proc.devRef .tc main_v8) = Cert.Spec.MM2 (V3 m ρ c main_v6) (V3 m ρ c main_v5) (V3 m ρ c main_v7) :=
    (W4_arr m ρ c 3).trans (final1 (V3 m ρ) c)
  have e0 : V1 m ρ c main_v0 = shapeCast S4096x128x32 (m ((c : Thread nD τ).loc main_arg1)) shapeCasts_S4096x4096_S4096x128x32 := h0_v0 (W0 m ρ c)
  have e1 : V1 m ρ c main_v1 = shapeCast S4096x128x32 (m ((c : Thread nD τ).loc main_arg2)) shapeCasts_S4096x4096_S4096x128x32 := h0_v1 (W0 m ρ c)
  have e2 : V1 m ρ c main_v2 = shapeCast S4096x128x1 (m ((c : Thread nD τ).loc main_arg3)) shapeCasts_S4096x128_S4096x128x1 := h0_v2 (W0 m ρ c)
  have e3 : V1 m ρ c main_v3 = shapeCast S4096x128x1 (m ((c : Thread nD τ).loc main_arg4)) shapeCasts_S4096x128_S4096x128x1 := h0_v3 (W0 m ρ c)
  have e5 : V3 m ρ c main_v5 = shapeCast S4096x4096 (W2 m ρ c (Proc.devRef .tc main_v4)) shapeCasts_S4096x128x32_S4096x4096 := h1_v5 (W2 m ρ c)
  have e6 : V3 m ρ c main_v6 = shapeCast S8192x4096 (m ((c : Thread nD τ).loc main_arg0)) shapeCasts_S4x2048x4096_S8192x4096 :=
    (h1_v6 (W2 m ρ c)).trans (by rw [W2_main_arg0])
  have e7 : V3 m ρ c main_v7 = shapeCast S1x4096 (m ((c : Thread nD τ).loc main_arg5)) shapeCasts_S4096_S1x4096 :=
    (h1_v7 (W2 m ρ c)).trans (by rw [W2_main_arg5])
  have e9 : W5 (F := Ideal) m ρ c (Proc.devRef .tc main_v9) = shapeCast S4x2048x4096 (W4 m ρ c (Proc.devRef .tc main_v8)) shapeCasts_S8192x4096_S4x2048x4096 :=
    h2_v9 (W4 m ρ c)
  rw [e9, e8, e6, e7, e5, e4, e0, e1, e2, e3]
  unfold Cert.Spec.Whole
  exact Cert.Spec.cast_MM2 _ _ _

end Cert.KernelIdeal.Hand

end
-- ==== Proof.RefDequant.lean ====
/-
  The reference's 4096 x 128 x 32 array after the rounding, entry by entry.

  Per group (o, g) the reference computes lo and hi by a reduce with a min / max body over the group's 32 entries, the
  step s = max ((hi * mx - lo * mn) / 255) ε and the offset z = (-(lo * mn)) / s on 4096 x 128 x 1 arrays, spreads both
  over the 32 entries of the group, and forms s * (min 255 (max 0 (round-half-even (w / s + z + v))) - z).  Read at
  (o, g, l) each stage is an operation on the stages before it read at (o, g, l) or (o, g, 0); the two reduces are folds
  of min / max over l; and -(a) = 0 - a over the extended reals.  So the array is the specification's, of the weights and
  corrections regrouped as 4096 x 128 x 32 and the factors as 4096 x 128 x 1.
-/
import proofs.«133823_j23596550324544_2_alg».proof.Proof.Gen.ReferenceIdeal.Read
import proofs.«133823_j23596550324544_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reduced index (o, g) with the coordinate k put back on the last axis is (o, g, k). -/
theorem lift_ix3 (h : S4096x128x32.Reduces [2] S4096x128) (o : Fin 4096) (g : Fin 128)
    (k : Fin (S4096x128x32.size 2)) : h.lift (ix2 o g) k = ix3 o g (⟨k.val, k.isLt⟩ : Fin 32) := by
  funext c; apply Fin.ext
  fin_cases c <;> rfl

/-- The smallest entry of a group: the reduce with a minimum body from +∞ over the last axis, at (o, g), is the fold
    of min over the group's 32 entries. -/
theorem reduce_min_apply (w3 : (⟨S4096x128x32, .f32⟩ : BufTy).Contents (Elt Ideal)) (o : Fin 4096) (g : Fin 128) :
    (Host.reduce (FloatOps.minimumf (F := Ideal) (φ := .f32)) w3 (val_main_cst (F := Ideal)) reducesTo_S4096x128x32_S4096x128_d2 h_S_
        : (⟨S4096x128, .f32⟩ : BufTy).Contents (Elt Ideal)) (ix2 o g)
      = Cert.Spec.glo w3 o g := by
  have h : S4096x128x32.Reduces [2] S4096x128 := by decide
  rw [Host.reduce_eq_fold_single (FloatOps.minimumf (F := Ideal) (φ := .f32)) w3 _ reducesTo_S4096x128x32_S4096x128_d2 h h_S_]
  have hf : (w3 ∘ h.lift (ix2 o g)) = fun l : Fin 32 => w3 (ix3 o g l) := funext fun k => congrArg w3 (lift_ix3 h o g k)
  unfold Cert.Spec.glo
  exact congrArg (fun f => Finset.fold min (Ideal.ofBits .f32 0x7F800000#32) f (Finset.univ : Finset (Fin 32))) hf

/-- The largest entry of a group, likewise: the fold of max from -∞. -/
theorem reduce_max_apply (w3 : (⟨S4096x128x32, .f32⟩ : BufTy).Contents (Elt Ideal)) (o : Fin 4096) (g : Fin 128) :
    (Host.reduce (FloatOps.maximumf (F := Ideal) (φ := .f32)) w3 (val_main_cst_0 (F := Ideal)) reducesTo_S4096x128x32_S4096x128_d2 h_S_
        : (⟨S4096x128, .f32⟩ : BufTy).Contents (Elt Ideal)) (ix2 o g)
      = Cert.Spec.ghi w3 o g := by
  have h : S4096x128x32.Reduces [2] S4096x128 := by decide
  rw [Host.reduce_eq_fold_single (FloatOps.maximumf (F := Ideal) (φ := .f32)) w3 _ reducesTo_S4096x128x32_S4096x128_d2 h h_S_]
  have hf : (w3 ∘ h.lift (ix2 o g)) = fun l : Fin 32 => w3 (ix3 o g l) := funext fun k => congrArg w3 (lift_ix3 h o g k)
  unfold Cert.Spec.ghi
  exact congrArg (fun f => Finset.fold max (Ideal.ofBits .f32 0xFF800000#32) f (Finset.univ : Finset (Fin 32))) hf

/-! ### Index bookkeeping: the generated re-indexings at (o, g, l) and (o, g, 0) -/

theorem idx2_at (o : Fin 4096) (g : Fin 128) : idx_main_v2 (ix3 o g (0 : Fin 1)) = ix2 o g :=
  funext fun a => Fin.ext (by match a with | ⟨0, _⟩ => rfl | ⟨1, _⟩ => rfl)
theorem idx3_at (o : Fin 4096) (g : Fin 128) : idx_main_v3 (ix3 o g (0 : Fin 1)) = ix2 o g :=
  funext fun a => Fin.ext (by match a with | ⟨0, _⟩ => rfl | ⟨1, _⟩ => rfl)
theorem idx6_at (o : Fin 4096) (g : Fin 128) : idx_main_v6 (ix3 o g (0 : Fin 1)) = ix2 o g :=
  funext fun a => Fin.ext (by match a with | ⟨0, _⟩ => rfl | ⟨1, _⟩ => rfl)
theorem idx7_at (o : Fin 4096) (g : Fin 128) : idx_main_v7 (ix3 o g (0 : Fin 1)) = ix2 o g :=
  funext fun a => Fin.ext (by match a with | ⟨0, _⟩ => rfl | ⟨1, _⟩ => rfl)
theorem idx16_at (o : Fin 4096) (g : Fin 128) (l : Fin 32) : idx_main_v16 (ix3 o g l) = ix3 o g (0 : Fin 1) :=
  funext fun a => Fin.ext (by match a with | ⟨0, _⟩ => rfl | ⟨1, _⟩ => rfl | ⟨2, _⟩ => rfl)
theorem idx18_at (o : Fin 4096) (g : Fin 128) (l : Fin 32) : idx_main_v18 (ix3 o g l) = ix3 o g (0 : Fin 1) :=
  funext fun a => Fin.ext (by match a with | ⟨0, _⟩ => rfl | ⟨1, _⟩ => rfl | ⟨2, _⟩ => rfl)
theorem idx24_at (o : Fin 4096) (g : Fin 128) (l : Fin 32) : idx_main_v24 (ix3 o g l) = ix3 o g (0 : Fin 1) :=
  funext fun a => Fin.ext (by match a with | ⟨0, _⟩ => rfl | ⟨1, _⟩ => rfl | ⟨2, _⟩ => rfl)
theorem idx26_at (o : Fin 4096) (g : Fin 128) (l : Fin 32) : idx_main_v26 (ix3 o g l) = ix3 o g (0 : Fin 1) :=
  funext fun a => Fin.ext (by match a with | ⟨0, _⟩ => rfl | ⟨1, _⟩ => rfl | ⟨2, _⟩ => rfl)

/-! ### The per-group quantities -/

/-- lo * mn of group (o, g). -/
theorem v4_at (x1 : (⟨S4096x4096, .f32⟩ : BufTy).Contents (Elt Ideal)) (x3 : (⟨S4096x128, .f32⟩ : BufTy).Contents (Elt Ideal))
    (o : Fin 4096) (g : Fin 128) :
    val_main_v4 (F := Ideal) x1 x3 (ix3 o g (0 : Fin 1))
      = Cert.Spec.glo (val_main_v0 (F := Ideal) x1) o g * x3 (ix2 o g) := by
  rw [val_main_v4_apply, val_main_v2_apply, val_main_v3_apply, idx2_at, idx3_at]
  unfold val_main_v1
  rw [reduce_min_apply]
  rfl

/-- hi * mx of group (o, g). -/
theorem v8_at (x1 : (⟨S4096x4096, .f32⟩ : BufTy).Contents (Elt Ideal)) (x4 : (⟨S4096x128, .f32⟩ : BufTy).Contents (Elt Ideal))
    (o : Fin 4096) (g : Fin 128) :
    val_main_v8 (F := Ideal) x1 x4 (ix3 o g (0 : Fin 1))
      = Cert.Spec.ghi (val_main_v0 (F := Ideal) x1) o g * x4 (ix2 o g) := by
  rw [val_main_v8_apply, val_main_v6_apply, val_main_v7_apply, idx6_at, idx7_at]
  unfold val_main_v5
  rw [reduce_max_apply]
  rfl

/-- The step of group (o, g). -/
theorem v13_at (x1 : (⟨S4096x4096, .f32⟩ : BufTy).Contents (Elt Ideal)) (x3 x4 : (⟨S4096x128, .f32⟩ : BufTy).Contents (Elt Ideal))
    (o : Fin 4096) (g : Fin 128) :
    val_main_v13 (F := Ideal) x1 x3 x4 (ix3 o g (0 : Fin 1))
      = Cert.Spec.stepOf (Cert.Spec.glo (val_main_v0 (F := Ideal) x1) o g) (Cert.Spec.ghi (val_main_v0 (F := Ideal) x1) o g)
          (x3 (ix2 o g)) (x4 (ix2 o g)) := by
  rw [val_main_v13_apply, val_main_v11_apply, val_main_v9_apply, v8_at, v4_at, val_main_v10_apply, val_main_v12_apply,
    val_main_cst_1_apply, val_main_cst_2_apply]
  rfl

/-- The offset of group (o, g): the reference negates lo * mn, the specification subtracts it from the zero word. -/
theorem v15_at (x1 : (⟨S4096x4096, .f32⟩ : BufTy).Contents (Elt Ideal)) (x3 x4 : (⟨S4096x128, .f32⟩ : BufTy).Contents (Elt Ideal))
    (o : Fin 4096) (g : Fin 128) :
    val_main_v15 (F := Ideal) x1 x3 x4 (ix3 o g (0 : Fin 1))
      = Cert.Spec.offOf (Cert.Spec.glo (val_main_v0 (F := Ideal) x1) o g) (x3 (ix2 o g))
          (Cert.Spec.stepOf (Cert.Spec.glo (val_main_v0 (F := Ideal) x1) o g) (Cert.Spec.ghi (val_main_v0 (F := Ideal) x1) o g)
            (x3 (ix2 o g)) (x4 (ix2 o g))) := by
  rw [val_main_v15_apply, val_main_v14_apply, v13_at, v4_at]
  unfold Cert.Spec.offOf
  rw [show (Cert.Spec.czero : EReal) = 0 from Ideal.ofBits_zero_f32, zero_sub]
  rfl

/-! ### The whole 4096 x 128 x 32 stage -/

/-- A factor array cast to 4096 x 128 x 1 and read at (o, g, 0) is the factor at (o, g). -/
theorem factor_at (x : (⟨S4096x128, .f32⟩ : BufTy).Contents (Elt Ideal)) (o : Fin 4096) (g : Fin 128) :
    (shapeCast Cert.Spec.S31 x) (ix3 o g (0 : Fin 1)) = x (ix2 o g) :=
  shapeCast_apply x (by decide) (ix3 o g (0 : Fin 1)) (ix2 o g)
    (by rw [Shape.rowMajor_val_two, Shape.rowMajor_val_three]; show o.val * 128 + g.val = (o.val * 128 + g.val) * 1 + 0; omega)

/-- One entry of the reference's 4096 x 128 x 32 array after the rounding. -/
theorem v27_at (x1 x2 : (⟨S4096x4096, .f32⟩ : BufTy).Contents (Elt Ideal)) (x3 x4 : (⟨S4096x128, .f32⟩ : BufTy).Contents (Elt Ideal))
    (o : Fin 4096) (g : Fin 128) (l : Fin 32) :
    val_main_v27 (F := Ideal) x1 x2 x3 x4 (ix3 o g l)
      = Cert.Spec.entryOf (Cert.Spec.glo (val_main_v0 (F := Ideal) x1) o g) (Cert.Spec.ghi (val_main_v0 (F := Ideal) x1) o g)
          (x3 (ix2 o g)) (x4 (ix2 o g)) (val_main_v0 (F := Ideal) x1 (ix3 o g l)) (val_main_v20 (F := Ideal) x2 (ix3 o g l)) := by
  rw [val_main_v27_apply, val_main_v26_apply, val_main_v25_apply, val_main_v23_apply, val_main_v24_apply,
    val_main_call1_v4_apply, val_main_call1_v3_apply, val_main_cst_4_apply, val_main_call1_v2_apply,
    val_main_call1_v1_apply, val_main_call1_v0_apply, val_main_cst_3_apply, val_main_v22_apply, val_main_v21_apply,
    val_main_v19_apply, val_main_v17_apply, val_main_v18_apply, val_main_v16_apply,
    idx26_at, idx24_at, idx16_at, idx18_at, v13_at, v15_at]
  rfl

/-- The reference's 4096 x 128 x 32 array after the rounding is the specification's, of the regrouped arguments. -/
theorem v27_eq (x1 x2 : (⟨S4096x4096, .f32⟩ : BufTy).Contents (Elt Ideal)) (x3 x4 : (⟨S4096x128, .f32⟩ : BufTy).Contents (Elt Ideal)) :
    val_main_v27 (F := Ideal) x1 x2 x3 x4
      = Cert.Spec.DQ3 (shapeCast Cert.Spec.S3 x1) (shapeCast Cert.Spec.S3 x2) (shapeCast Cert.Spec.S31 x3) (shapeCast Cert.Spec.S31 x4) := by
  funext j
  obtain ⟨o, g, l, rfl⟩ : ∃ (o : Fin 4096) (g : Fin 128) (l : Fin 32), j = ix3 o g l := ⟨j 0, j 1, j 2, eq_ix3 j⟩
  rw [v27_at]
  show _ = Cert.Spec.entryOf (Cert.Spec.glo (shapeCast Cert.Spec.S3 x1) o g) (Cert.Spec.ghi (shapeCast Cert.Spec.S3 x1) o g)
    ((shapeCast Cert.Spec.S31 x3) (ix3 o g (0 : Fin 1))) ((shapeCast Cert.Spec.S31 x4) (ix3 o g (0 : Fin 1)))
    ((shapeCast Cert.Spec.S3 x1) (ix3 o g l)) ((shapeCast Cert.Spec.S3 x2) (ix3 o g l))
  rw [factor_at, factor_at]
  rfl

end Cert.ReferenceIdeal.RefValue

end
-- ==== Proof.RefValue.lean ====
/-
  The reference's result is the specification's function of the six arguments.

  After the rounding the 4096 x 128 x 32 array is read back as a 4096 x 4096 matrix q; the result at (b, r, o) is the sum
  over k < 4096 of x (b, r, k) * q (o, k), plus the bias at o (the bias vector spread first to 1 x 1 x 4096 and then to
  every row).
-/
import proofs.«133823_j23596550324544_2_alg».proof.Proof.RefDequant

noncomputable section

open scoped BigOperators

namespace Cert.ReferenceIdeal.RefValue

open Cert.ReferenceIdeal Cert.ReferenceIdeal.Gen Cert.ReferenceIdeal.Read Idealize.ShloMosaic Idealize.ShloMosaic.ValueIdx

/-- The left operand's index of the contraction at k: (b, r, k). -/
theorem lidx_at (i : S4x2048x4096.Idx) (k : Fin 4096) : lidx_main_v29 i k = ix3 (i 0) (i 1) k :=
  funext fun a => Fin.ext (by match a with | ⟨0, _⟩ => rfl | ⟨1, _⟩ => rfl | ⟨2, _⟩ => rfl)
/-- The right operand's: (o, k). -/
theorem ridx_at (i : S4x2048x4096.Idx) (k : Fin 4096) : ridx_main_v29 i k = ix2 (i 2) k :=
  funext fun a => Fin.ext (by match a with | ⟨0, _⟩ => rfl | ⟨1, _⟩ => rfl)
/-- The spread bias read at (b, r, o) is the bias at o. -/
theorem bidx_at (i : S4x2048x4096.Idx) : idx_main_v30 (idx_main_v31 i) = ix1 (i 2) :=
  funext fun a => Fin.ext (by match a with | ⟨0, _⟩ => rfl)

/-- The matrix the rows of x multiply: the specification's array read back as 4096 x 4096. -/
theorem v28_eq (x1 x2 : (⟨S4096x4096, .f32⟩ : BufTy).Contents (Elt Ideal)) (x3 x4 : (⟨S4096x128, .f32⟩ : BufTy).Contents (Elt Ideal)) :
    val_main_v28 (F := Ideal) x1 x2 x3 x4
      = shapeCast Cert.Spec.SW (Cert.Spec.DQ3 (shapeCast Cert.Spec.S3 x1) (shapeCast Cert.Spec.S3 x2)
          (shapeCast Cert.Spec.S31 x3) (shapeCast Cert.Spec.S31 x4)) := by
  unfold val_main_v28
  rw [v27_eq]

theorem ref_eq (x0 : (⟨Cert.ReferenceIdeal.S4x2048x4096, .f32⟩ : BufTy).Contents (Elt Ideal))
    (x1 x2 : (⟨Cert.ReferenceIdeal.S4096x4096, .f32⟩ : BufTy).Contents (Elt Ideal))
    (x3 x4 : (⟨Cert.ReferenceIdeal.S4096x128, .f32⟩ : BufTy).Contents (Elt Ideal))
    (x5 : (⟨Cert.ReferenceIdeal.S4096, .f32⟩ : BufTy).Contents (Elt Ideal)) :
    Cert.ReferenceIdeal.Read.val_main_v32 (F := Ideal) x0 x1 x2 x3 x4 x5 = Cert.Spec.Whole x0 x1 x2 x3 x4 x5 := by
  funext i
  rw [val_main_v32_apply, val_main_v29_apply, val_main_v31_apply, val_main_v30_apply, bidx_at, v28_eq]
  simp only [lidx_at, ridx_at]
  rfl

end Cert.ReferenceIdeal.RefValue

end
-- ==== Proof.lean ====
/-
  A linear layer over weights that are first rounded, group by group, to 256 levels and back: the kernel program (a
  first kernel region that rounds the weights 32 rows at a time, a second that multiplies row tiles of x with row tiles
  of the rounded weights, accumulating over eight column blocks and adding the bias at the last) against the plain
  array program.  Over the extended reals both compute one function of the six arguments (Proof/Spec.lean): the
  kernel program because each region's output array is, block by block, the specification's array and a sum of eight
  partial sums of 512 terms is the sum of the 4096; the reference because its operations, read one at a time, are the
  specification's.  No step needs a finite entry, so the precondition is not used.  The three programs also run to
  the end, fault nowhere and leave their arguments as launched: the kernel programs by running their five segments
  (three stretches of reshapes around the two kernel regions) in order, the reference by its run.
-/
import proofs.«133823_j23596550324544_2_alg».proof.Defs
import proofs.«133823_j23596550324544_2_alg».proof.Proof.Gen.Kernel
import proofs.«133823_j23596550324544_2_alg».proof.Proof.Gen.KernelIdeal
import proofs.«133823_j23596550324544_2_alg».proof.Proof.Gen.ReferenceIdeal
import proofs.«133823_j23596550324544_2_alg».proof.Proof.Gen.Pre_finite_inputs
import proofs.«133823_j23596550324544_2_alg».proof.Proof.Gen.ReferenceIdeal.Run
import proofs.«133823_j23596550324544_2_alg».proof.Proof.Gen.ReferenceIdeal.Read
import proofs.«133823_j23596550324544_2_alg».proof.Proof.K.Run
import proofs.«133823_j23596550324544_2_alg».proof.Proof.KI.Final
import proofs.«133823_j23596550324544_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k [Cert.Kernel.Facts] [Cert.Pre_finite_inputs.Facts] : Cert.frame_Kernel :=
  fun m ρ _ => Cert.Kernel.Hand.frame (F := Bits) m ρ

/-- So does the idealized kernel program. -/
theorem frame_ki [Cert.KernelIdeal.Facts] [Cert.Pre_finite_inputs.Facts] : Cert.frame_KernelIdeal :=
  fun m ρ _ => Cert.KernelIdeal.Hand.frame (F := Ideal) m ρ

/-- And the reference: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with the specification's function of the (agreeing) arguments in their result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.Whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v9 (by decide))).trans (Cert.KernelIdeal.Hand.result_eq m ρ c),
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v32_eq, Cert.ReferenceIdeal.RefValue.ref_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
